-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel

variable [Facts]

def fn {F : FTy → Type} [FloatOps F] (main_arg0 : FVec F S8x4096x1024 .f32) (main_arg1 : FVec F S8x4096x1024 .f32) (main_arg2 : FVec F S8x4096x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096x1024 .f32 := Host.absf main_arg2
  let main_cst_2 : FVec F S_ .f32 := constant S_ .f32 0x7F800000#32
  let main_v10 : FVec F S8x4096x1024 .f32 := broadcastInDim S8x4096x1024 ![] bcast_S_S8x4096x1024 main_cst_2
  let main_v11 : IVec S8x4096x1024 1 := cmpf .olt main_v9 main_v10
  let main_c_3 : IVec S_ 1 := constantI S_ 1 1#1
  let main_v12 : IVec S_ 1 := (fun x v => Host.reduce IntOp.andi x v reducesTo_S8x4096x1024_S_d0_1_2 h_S_) main_v11 main_c_3
  let main_v13 : IVec S_ 1 := andi main_v8 main_v12
  main_v13
-- ==== Kernel.lean ====
abbrev S8x4096x1024 : Shape := ⟨3, ![8, 4096, 1024]⟩
abbrev S8x1024x1024 : Shape := ⟨3, ![8, 1024, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 5
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x1024x1024, .bf16⟩
  | .hbm, ⟨4, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x1024x1024, .bf16⟩
  | .local _ .vmem, ⟨10, _⟩ => ⟨S1x1024x1024, .bf16⟩
  | .local _ .vmem, ⟨11, _⟩ => ⟨S1x512x1024, .f32⟩
  | .local _ .vmem, ⟨12, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_11 : BitVec 32 := 0#32
  let v19 : BitVec 1 := Scalar.cmpi .ne v18 c0_i32_11
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  packedbf16_S1x1024x1024_S1x1024x1024_0_0_0 : (Rect.unit (s := S1x1024x1024) ![0, 0, 0] S1x1024x1024.size inb_S1x1024x1024_S1x1024x1024_0_0_0).PackedRows (EltTy.packing .bf16)
  shapeCasts_S512x1024_S1x512x1024 : S512x1024.ShapeCasts S1x512x1024
  dot_S512x1024_S512x1024_S1024x1024_0_0_1_1_n_n_wf : DotDims.WF S512x1024 S512x1024 S1024x1024 [0] [0] [1] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .f32 = 32 ∨ (Rect.block (s := S8x4096x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .f32 = 32 ∨ (Rect.block (s := S8x4096x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x1024.size a
  hwx0_2 : ∀ i : grid0.Coords, EltTy.bits .bf16 = 32 ∨ (Rect.block (s := S8x1024x1024) S1x1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x4096x1024.size a
  hwx1_0 : ∀ i : grid1.Coords, EltTy.bits .f32 = 32 ∨ (Rect.block (s := S8x4096x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x1024x1024.size a
  hwx1_1 : ∀ i : grid1.Coords, EltTy.bits .bf16 = 32 ∨ (Rect.block (s := S8x1024x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S8x4096x1024.size a
  hwx1_2 : ∀ i : grid1.Coords, EltTy.bits .f32 = 32 ∨ (Rect.block (s := S8x4096x1024) S1x512x1024.size (cc1_transform_2 i) (hinb1_2 i)).WholeWords (EltTy.packing .f32)

variable [Facts₀]

def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x512x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S_ : Shape := ⟨0, ![]⟩
abbrev S8x1024x1024 : Shape := ⟨3, ![8, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S_, .f32⟩
  | .hbm, ⟨4, _⟩ => ⟨S8x4096x1024, .f32⟩
  | .hbm, ⟨5, _⟩ => ⟨S8x4096x1024, .f32⟩
  | .hbm, ⟨6, _⟩ => ⟨S_, .f32⟩
  | .hbm, ⟨7, _⟩ => ⟨S8x4096x1024, .f32⟩
  | .hbm, ⟨8, _⟩ => ⟨S8x4096x1024, .f32⟩
  | .hbm, ⟨9, _⟩ => ⟨S8x1024x1024, .f32⟩
  | .hbm, ⟨10, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S_S8x4096x1024 : S_.BroadcastsInDim S8x4096x1024 (![] : Fin 0 → Fin S8x4096x1024.rank)
  dot_S8x4096x1024_S8x4096x1024_S8x1024x1024_1_1_2_2_0_0_wf : DotDims.WF S8x4096x1024 S8x4096x1024 S8x1024x1024 [1] [1] [2] [2] [0] [0]
  dot_S8x4096x1024_S8x1024x1024_S8x4096x1024_2_1_1_2_0_0_wf : DotDims.WF S8x4096x1024 S8x1024x1024 S8x4096x1024 [2] [1] [1] [2] [0] [0]

variable [Facts₀]

def dot_S8x4096x1024_S8x4096x1024_S8x1024x1024_1_1_2_2_0_0 : DotDims S8x4096x1024 S8x4096x1024 S8x1024x1024 where
  lhsContracting := [1]
  rhsContracting := [1]
  lhsNonContracting := [2]
  rhsNonContracting := [2]
  lhsBatch := [0]
  rhsBatch := [0]
  wf := dot_S8x4096x1024_S8x4096x1024_S8x1024x1024_1_1_2_2_0_0_wf
def dot_S8x4096x1024_S8x1024x1024_S8x4096x1024_2_1_1_2_0_0 : DotDims S8x4096x1024 S8x1024x1024 S8x4096x1024 where
  lhsContracting := [2]
  rhsContracting := [1]
  lhsNonContracting := [1]
  rhsNonContracting := [2]
  lhsBatch := [0]
  rhsBatch := [0]
  wf := dot_S8x4096x1024_S8x1024x1024_S8x4096x1024_2_1_1_2_0_0_wf

class Facts : Prop extends Facts₀ where

variable [Facts]
-- ==== Proof.FrameK.Shared.lean ====
/-
  What the two regions' frame proofs share, at any float instance.

  Region 0 walks a grid of 8 batches × 8 tiles. At a point (b, s) its body: clears the accumulator when s = 0; adds to it the
  product (K tile scaled)ᵀ · (V tile); and, when s = 7, writes the accumulator out as batch b of the [8,1024,1024] result. So a
  point is in one of three cases — first tile (clear, then add), middle tile (add), last tile (add, then write out) — decided by
  the point's position modulo 8. Here: the two conditions in closed form over the grid, where the output window is idle, the
  staging and scratch memrefs by name, and each window's block at a point read off the array the region finds.
  Region 1 walks the same grid and at (b, s) writes rows 512 s … 512 s + 511 of batch b of the result: one case.
-/
import proofs.«156753_j34445637714059_1_alg».proof.Proof.Gen.Kernel.Launch
import proofs.«156753_j34445637714059_1_alg».proof.Proof.Gen.Kernel.Skeleton
import proofs.«156753_j34445637714059_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the body's two conditions over the grid -/

/-- "This is the batch's first tile": the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the batch's last tile": the body's second conditional. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Region 0: where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off a batch's last tile the body stores nothing into the output window: idle, -/
theorem idleAt0_2 : ∀ t : Fin cfg0.N, ¬cond0_1 (grid0.coords t) → cfg0.idle 2 (grid0.coords t) = true := by decide +kernel
/-- and not written back. -/
theorem noFlush0_2 : ∀ t : Fin cfg0.N, ¬cond0_1 (grid0.coords t) → (cfg0.win 2).flush t = false := by decide +kernel
/-- On a batch's last tile it is live. -/
theorem liveAt0_2 : ∀ t : Fin cfg0.N, cond0_1 (grid0.coords t) → cfg0.idle 2 (grid0.coords t) = false := by decide +kernel

/-! ## Region 0: the memrefs the body is called with -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x1024 .f32 := Memref.whole cc0_scratch0
/-- The accumulator and one staging buffer of the output window as views, through which contents are stated. -/
abbrev VS0 : View sig .tc .vmem S1024x1024 .f32 := scM0.view
abbrev VO0 : View sig .tc .vmem S1x1024x1024 .bf16 := (Memref.whole cc0_stg2_0 : Memref sig .tc .vmem S1x1024x1024 .bf16).view

/-- Region 0's untouched rest, with the accumulator split out as a memref owned at some contents. -/
theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0, owns_whole]; try rfl

/-! ## The windows' blocks, at the contents `V` a region finds -/

section Blocks
variable (V : (c : Dev nD) → (b : Ref sig .tc) → Buf (Elt F) ((c : Thread nD τ).loc b))

/-- Region 0, window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Region 1, window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The per-batch matrix is fetched only at a batch's first tile; at the others the buffer still holds it (the index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 1: the memrefs the body is called with -/

abbrev ms1_0 (t : Fin cfg1.N) : Memref sig .tc .vmem S1x512x1024 .f32 := win1_0.stage (cfg1.slots t 0)
abbrev ms1_1 (t : Fin cfg1.N) : Memref sig .tc .vmem S1x1024x1024 .bf16 := win1_1.stage (cfg1.slots t 1)
abbrev ms1_2 (t : Fin cfg1.N) : Memref sig .tc .vmem S1x512x1024 .f32 := win1_2.stage (cfg1.slots t 2)

end Cert.Kernel.Hand

end
-- ==== Proof.FrameK.RunA.lean ====
/-
  Region 0's body at a batch's FIRST tile: the accumulator is cleared (whatever it held), then the tile's product is added;
  nothing is stored into the output window. The pieces the accumulator ends with are found by running the body.
-/
import proofs.«156753_j34445637714059_1_alg».proof.Proof.FrameK.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First tile: inputs at their blocks, the output's buffer handed back untouched, the accumulator entered at anything and
    left with its pieces written. -/
noncomputable def kernelRun0_A (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : cond0_0 i) (hc1 : ¬cond0_1 i)
    (x0 x1 : Vec F S1x512x1024 .f32) :
    Σ' (L2 : List (View.Piece (Elt F) S1x1024x1024 .bf16)), { LS0 : List (View.Piece (Elt F) S1024x1024 .f32) //
      ∀ (xi2 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨[], ?_, fun xi2 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.FrameK.RunB.lean ====
/-
  Region 0's body at a MIDDLE tile of a batch: the tile's product is added to what the point before left in the accumulator;
  nothing is stored into the output window.
-/
import proofs.«156753_j34445637714059_1_alg».proof.Proof.FrameK.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle tile: the accumulator entered at `xs0` and left with its pieces written. -/
noncomputable def kernelRun0_B (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : ¬cond0_1 i)
    (x0 x1 : Vec F S1x512x1024 .f32) (xs0 : Vec F S1024x1024 .f32) :
    Σ' (L2 : List (View.Piece (Elt F) S1x1024x1024 .bf16)), { LS0 : List (View.Piece (Elt F) S1024x1024 .f32) //
      ∀ (xi2 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨[], ?_, fun xi2 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.FrameK.RunC.lean ====
/-
  Region 0's body at a batch's LAST tile: the tile's product is added to what the point before left in the accumulator, and
  the accumulator is then written out, whole, into the output window's buffer.
-/
import proofs.«156753_j34445637714059_1_alg».proof.Proof.FrameK.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last tile: the accumulator entered at `xs0`; it and the output's buffer are left with their pieces written. -/
noncomputable def kernelRun0_C (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i)
    (x0 x1 : Vec F S1x512x1024 .f32) (xs0 : Vec F S1024x1024 .f32) :
    Σ' (L2 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.FrameK.Region0.lean ====
/-
  Region 0, point by point, at any float instance and at any contents `V` the region finds.

  What the accumulator holds after each point is a recursion on the point: at a batch's first tile, what the first-tile case
  leaves (it does not depend on the point before); at a later tile, what the middle- or last-tile case leaves from what the
  point before left. At a batch's last tile the output window's buffer receives the accumulator; elsewhere it is idle. The
  region's invariant carries the accumulator at exactly those contents from one point to the next; the other scoped buffers
  (the second region's staging buffers) and the generator register ride along untouched.
-/
import proofs.«156753_j34445637714059_1_alg».proof.Proof.FrameK.RunA
import proofs.«156753_j34445637714059_1_alg».proof.Proof.FrameK.RunB
import proofs.«156753_j34445637714059_1_alg».proof.Proof.FrameK.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- First tile: the accumulator's pieces cover it. -/
theorem scover0_A (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : cond0_0 i) (hc1 : ¬cond0_1 i) (x0 x1 : Vec F S1x512x1024 .f32) (y : S1024x1024.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1024.size (by sl_kernel_rfl) y
/-- What the first-tile case leaves in the accumulator. -/
def sout0_A (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : cond0_0 i) (hc1 : ¬cond0_1 i) (x0 x1 : Vec F S1x512x1024 .f32) : Vec F S1024x1024 .f32 :=
  VS0.read (Elt F) (VS0.writes (Elt F) VS0.junk (kernelRun0_A c i arg2 harg2 arg3 harg3 arg4 harg4 arg5 harg5 hc0 hc1 x0 x1).2.1)

/-- Middle tile: the accumulator's pieces cover it. -/
theorem scover0_B (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : ¬cond0_1 i) (x0 x1 : Vec F S1x512x1024 .f32) (xs0 : Vec F S1024x1024 .f32) (y : S1024x1024.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1024.size (by sl_kernel_rfl) y
/-- What the middle-tile case leaves in the accumulator. -/
def sout0_B (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : ¬cond0_1 i) (x0 x1 : Vec F S1x512x1024 .f32) (xs0 : Vec F S1024x1024 .f32) : Vec F S1024x1024 .f32 :=
  VS0.read (Elt F) (VS0.writes (Elt F) VS0.junk (kernelRun0_B c i arg2 harg2 arg3 harg3 arg4 harg4 arg5 harg5 hc0 hc1 x0 x1 xs0).2.1)

/-- Last tile: the output buffer's pieces cover it, -/
theorem cover0_C (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i) (x0 x1 : Vec F S1x512x1024 .f32) (xs0 : Vec F S1024x1024 .f32) (y : S1x1024x1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1024x1024.size (by sl_kernel_rfl) y
/-- what it leaves there, -/
def out0_C (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i) (x0 x1 : Vec F S1x512x1024 .f32) (xs0 : Vec F S1024x1024 .f32) : Vec F S1x1024x1024 .bf16 :=
  VO0.read (Elt F) (VO0.writes (Elt F) VO0.junk (kernelRun0_C c i arg2 harg2 arg3 harg3 arg4 harg4 arg5 harg5 hc0 hc1 x0 x1 xs0).1)
/-- the accumulator's pieces cover it, -/
theorem scover0_C (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i) (x0 x1 : Vec F S1x512x1024 .f32) (xs0 : Vec F S1024x1024 .f32) (y : S1024x1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1024.size (by sl_kernel_rfl) y
/-- and what it leaves in the accumulator. -/
def sout0_C (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i) (x0 x1 : Vec F S1x512x1024 .f32) (xs0 : Vec F S1024x1024 .f32) : Vec F S1024x1024 .f32 :=
  VS0.read (Elt F) (VS0.writes (Elt F) VS0.junk (kernelRun0_C c i arg2 harg2 arg3 harg3 arg4 harg4 arg5 harg5 hc0 hc1 x0 x1 xs0).2.1)

/-- A placeholder for the output window's buffer where it is idle: nothing consults it there. -/
def idle2 : Vec F S1x1024x1024 .bf16 := VO0.read (Elt F) (VO0.writes (Elt F) VO0.junk [])

/-- The six staging buffers of the second region, each at some contents: they ride through region 0 untouched. -/
def rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq' (c : Dev nD) :
    (Pipeline.ΦA spec0 c : sProp 𝕄) = iprop(iprop((∃ d, owns (c : Thread nD τ) scM0 fullShare d) ∗ rest6 c) ∗ (∃ r, prngReg c r)) := by
  unfold rest6; exact PhiA0_eq c

section Region
variable (V : (c : Dev nD) → (b : Ref sig .tc) → Buf (Elt F) ((c : Thread nD τ).loc b))

/-! ## What the output buffer and the accumulator hold after each point -/

/-- THE ACCUMULATION, by recursion on the point's position `n`: (the output window's buffer, the accumulator) after the body. -/
def outsAt0 (c : Dev nD) : (n : ℕ) → n < cfg0.N → Vec F S1x1024x1024 .bf16 × Vec F S1024x1024 .f32
  | 0, hn => (idle2, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (idle2, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idle2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a batch's first tile. -/
theorem outsAt0_A (c : Dev nD) (t : Fin cfg0.N) (h0 : t.val % 8 = 0) (h1 : ¬t.val % 8 = 7) :
    outsAt0 V c t.val t.isLt = (idle2, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle tile, over what the point before left. -/
theorem outsAt0_B (c : Dev nD) (t : Fin cfg0.N) (h0 : ¬t.val % 8 = 0) (h1 : ¬t.val % 8 = 7) :
    outsAt0 V c t.val t.isLt = (idle2, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a batch's last tile, over what the point before left. -/
theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the untouched rest as the launch hands it over; afterwards the accumulator at what
    the point before left, the second region's staging buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest6 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ rest6 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ rest6 c) ∗ (∃ r, prngReg c r)) := by
  cases n with
  | zero => exact absurd rfl hz
  | succ n => rfl

/-! ## The proof data -/

/-- Region 0's proof data on core `c`: the arrays as found; after the body each input's buffer at its block, the output's at the
    recursion's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the point's position modulo 8 says which case it is in; the invariant hands the body the accumulator
    (at anything at the region's first point, at what the point before left afterwards) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS_castSucc V c t, PhiS_zero V c _ _ hz, PhiA0_eq']
      iintro ⟨⟨⟨HS0, Hr6⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_A c _ _ _ _ _ _ _ _ _ _ _ _ _)
          iexact Hr6
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hr6⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_A c _ _ _ _ _ _ _ _ _ _ _ _ _)
          iexact Hr6
        iexact Hg
      isplitl [Ho]; · iexact Ho
      isplitl [H0]; · iexact H0
      isplitl [H1]; · iexact H1
      iexists _; iexact H2
  · have hz : t.val ≠ 0 := by omega
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS_castSucc V c t, PhiS_pos V c _ _ hz]
      iintro ⟨⟨⟨HS0, Hr6⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_C c _ _ _ _ _ _ _ _ _ _ _ _ _ _)
          iexact Hr6
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS_castSucc V c t, PhiS_pos V c _ _ hz]
      iintro ⟨⟨⟨HS0, Hr6⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_B c _ _ _ _ _ _ _ _ _ _ _ _ _ _)
          iexact Hr6
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the untouched rest back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq']
  iintro ⟨⟨HS0, Hr6⟩, Hg⟩
  isplitl [HS0 Hr6]
  · isplitl [HS0]
    · iexists _; iexact HS0
    iexact Hr6
  iexact Hg

end Region

end Cert.Kernel.Hand

end
-- ==== Proof.FrameK.Run1.lean ====
/-
  Region 1's body, the same at every point: rows of Q (scaled) times the batch's matrix, stored whole into the output window's
  buffer (which the body also loads first, without using what it loads).
-/
import proofs.«156753_j34445637714059_1_alg».proof.Proof.FrameK.Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1 : Rect S1x512x1024 := Rect.unit (s := S1x512x1024) ![0, 0, 0] S1x512x1024.size inb_S1x512x1024_S1x512x1024_0_0_0
abbrev r1m : Rect S1x1024x1024 := Rect.unit (s := S1x1024x1024) ![0, 0, 0] S1x1024x1024.size inb_S1x1024x1024_S1x1024x1024_0_0_0

/-- The output window's buffer after the body, from the two input blocks: its one store as a piece. -/
def out1_2 (x0 : Vec F S1x512x1024 .f32) (x1 : Vec F S1x1024x1024 .bf16) : Vec F S1x512x1024 .f32 :=
  View.canon [⟨r1, k1_pay1 (View.ld x0 r1) (View.ld x1 r1m)⟩]

/-- The one store is of the whole buffer. -/
theorem cover1_2 (p0 : Vec F S1x512x1024 .f32) (y : S1x512x1024.Idx) :
    ∃ pc ∈ ([⟨r1, p0⟩] : List (View.Piece (Elt F) S1x512x1024 .f32)), y ∈ pc.1.set :=
  View.cover_of_tiled [⟨r1, p0⟩] S1x512x1024.size (by rfl) y

set_option maxHeartbeats 1000000 in
theorem sound_kernel1 (c : Dev nD) (i : grid1.Coords) (E : Set ℕ) (arg2 : Memref sig .tc .vmem S1x512x1024 .f32) (harg2 : arg2.IsWhole) (arg3 : Memref sig .tc .vmem S1x1024x1024 .bf16) (harg3 : arg3.IsWhole) (arg4 : Memref sig .tc .vmem S1x512x1024 .f32) (harg4 : arg4.IsWhole)
    (x0 : Vec F S1x512x1024 .f32) (x1 : Vec F S1x1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.Kernel.Hand

end
-- ==== Proof.FrameK.Region1.lean ====
/-
  Region 1, at any float instance and at any contents `V` the region finds: one case at every point. After the body the two
  input windows' buffers hold their blocks and the output window's buffer holds the body's one store, computed from those two
  blocks; the invariant is the untouched rest throughout.
-/
import proofs.«156753_j34445637714059_1_alg».proof.Proof.FrameK.Run1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c _ Set.univ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region

end Cert.Kernel.Hand

end
-- ==== Proof.FrameK.Main.lean ====
/-
  The whole run, at any float instance: @main is region 0 then region 1, with no host operation between them. The unscoped
  buffers' contents at the three boundaries are a fold from the launch memory: region 0 leaves its arrays at what its
  write-backs make of them (so the [8,1024,1024] intermediate is named), region 1 is entered from there and leaves its own
  arrays likewise (so the result is named). Each region is a segment over the thread state "every unscoped buffer at the
  boundary's contents, the generator register at some state, nothing owed". The run ends with every unscoped buffer at the
  last boundary's contents; read at the arguments that is the frame, read at the result it is the value the algebra is about.
-/
import proofs.«156753_j34445637714059_1_alg».proof.Proof.FrameK.Region0
import proofs.«156753_j34445637714059_1_alg».proof.Proof.FrameK.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- At region 0's exit (region 1's entry): its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ## The arguments end as launched; the intermediate and the result are what the write-backs leave -/

/-- Region 1 is entered with the first argument as launched (region 0 does not touch it), -/
theorem V2_main_arg0 (c : Dev nD) : V2 m ρ c main_arg0 = m ((c : Thread nD τ).loc main_arg0) :=
  (W2_of_ne m ρ c main_arg0 (by decide)).trans rfl
/-- and with the intermediate at what region 0's write-backs leave. -/
theorem V2_main_v0 (c : Dev nD) : V2 m ρ c main_v0 = (dat0 (V1 m ρ) c).arrAt 2 cfg0.N := W2_arr m ρ c 2

theorem W4_main_arg0 (c : Dev nD) : W4 m ρ c (Proc.devRef .tc main_arg0) = m ((c : Thread nD τ).loc main_arg0) :=
  calc W4 m ρ c (Proc.devRef .tc main_arg0)
    _ = V2 m ρ c main_arg0 := (W4_arr m ρ c 0).trans (((dat1 (V2 m ρ) c).arrAt_in 0 rfl _).trans (A_eq1 (V2 m ρ) c 0))
    _ = m ((c : Thread nD τ).loc main_arg0) := V2_main_arg0 m ρ c
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = V1 m ρ c main_arg1 := (W2_arr m ρ c 0).trans (((dat0 (V1 m ρ) c).arrAt_in 0 rfl _).trans (A_eq0 (V1 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = V1 m ρ c main_arg2 := (W2_arr m ρ c 1).trans (((dat0 (V1 m ρ) c).arrAt_in 1 rfl _).trans (A_eq0 (V1 m ρ) c 1))
    _ = m ((c : Thread nD τ).loc main_arg2) := rfl
theorem W4_main_v1 (c : Dev nD) : W4 m ρ c (Proc.devRef .tc main_v1) = (dat1 (V2 m ρ) c).arrAt 2 cfg1.N := W4_arr m ρ c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The same run read at the result too: it ends at what region 1's write-backs leave. -/
theorem run_value : θ_run defs (onTc (τ := τ) (main (F := F))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W4_main_v1 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.Kernel.Hand

end
-- ==== Proof.FrameI.Shared.lean ====
/-
  What the two regions' frame proofs share, at any float instance.

  Region 0 walks a grid of 8 batches × 8 tiles. At a point (b, s) its body: clears the accumulator when s = 0; adds to it the
  product (K tile scaled)ᵀ · (V tile); and, when s = 7, writes the accumulator out as batch b of the [8,1024,1024] result. So a
  point is in one of three cases — first tile (clear, then add), middle tile (add), last tile (add, then write out) — decided by
  the point's position modulo 8. Here: the two conditions in closed form over the grid, where the output window is idle, the
  staging and scratch memrefs by name, and each window's block at a point read off the array the region finds.
  Region 1 walks the same grid and at (b, s) writes rows 512 s … 512 s + 511 of batch b of the result: one case.
-/
import proofs.«156753_j34445637714059_1_alg».proof.Proof.Gen.KernelIdeal.Launch
import proofs.«156753_j34445637714059_1_alg».proof.Proof.Gen.KernelIdeal.Skeleton
import proofs.«156753_j34445637714059_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Region 0: the body's two conditions over the grid -/

/-- "This is the batch's first tile": the body's first conditional, from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- "This is the batch's last tile": the body's second conditional. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Region 0: where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Off a batch's last tile the body stores nothing into the output window: idle, -/
theorem idleAt0_2 : ∀ t : Fin cfg0.N, ¬cond0_1 (grid0.coords t) → cfg0.idle 2 (grid0.coords t) = true := by decide +kernel
/-- and not written back. -/
theorem noFlush0_2 : ∀ t : Fin cfg0.N, ¬cond0_1 (grid0.coords t) → (cfg0.win 2).flush t = false := by decide +kernel
/-- On a batch's last tile it is live. -/
theorem liveAt0_2 : ∀ t : Fin cfg0.N, cond0_1 (grid0.coords t) → cfg0.idle 2 (grid0.coords t) = false := by decide +kernel

/-! ## Region 0: the memrefs the body is called with -/

abbrev ms0_0 (t : Fin cfg0.N) : Memref sig .tc .vmem S1x512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x1024 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x1024 .f32 := Memref.whole cc0_scratch0
/-- The accumulator and one staging buffer of the output window as views, through which contents are stated. -/
abbrev VS0 : View sig .tc .vmem S1024x1024 .f32 := scM0.view
abbrev VO0 : View sig .tc .vmem S1x1024x1024 .bf16 := (Memref.whole cc0_stg2_0 : Memref sig .tc .vmem S1x1024x1024 .bf16).view

/-- Region 0's untouched rest, with the accumulator split out as a memref owned at some contents. -/
theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f)) ∗ (∃ r, prngReg c r)) := by
  unfold Pipeline.ΦA; rw [scopedRest0_eq]; simp only [scM0, owns_whole]; try rfl

/-! ## The windows' blocks, at the contents `V` a region finds -/

section Blocks
variable (V : (c : Dev nD) → (b : Ref sig .tc) → Buf (Elt F) ((c : Thread nD τ).loc b))

/-- Region 0, window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point (fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Region 1, window `w`'s block at point `t`, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The per-batch matrix is fetched only at a batch's first tile; at the others the buffer still holds it (the index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## Region 1: the memrefs the body is called with -/

abbrev ms1_0 (t : Fin cfg1.N) : Memref sig .tc .vmem S1x512x1024 .f32 := win1_0.stage (cfg1.slots t 0)
abbrev ms1_1 (t : Fin cfg1.N) : Memref sig .tc .vmem S1x1024x1024 .bf16 := win1_1.stage (cfg1.slots t 1)
abbrev ms1_2 (t : Fin cfg1.N) : Memref sig .tc .vmem S1x512x1024 .f32 := win1_2.stage (cfg1.slots t 2)

end Cert.KernelIdeal.Hand

end
-- ==== Proof.FrameI.RunA.lean ====
/-
  Region 0's body at a batch's FIRST tile: the accumulator is cleared (whatever it held), then the tile's product is added;
  nothing is stored into the output window. The pieces the accumulator ends with are found by running the body.
-/
import proofs.«156753_j34445637714059_1_alg».proof.Proof.FrameI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- First tile: inputs at their blocks, the output's buffer handed back untouched, the accumulator entered at anything and
    left with its pieces written. -/
noncomputable def kernelRun0_A (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : cond0_0 i) (hc1 : ¬cond0_1 i)
    (x0 x1 : Vec F S1x512x1024 .f32) :
    Σ' (L2 : List (View.Piece (Elt F) S1x1024x1024 .bf16)), { LS0 : List (View.Piece (Elt F) S1024x1024 .f32) //
      ∀ (xi2 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨[], ?_, fun xi2 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.FrameI.RunB.lean ====
/-
  Region 0's body at a MIDDLE tile of a batch: the tile's product is added to what the point before left in the accumulator;
  nothing is stored into the output window.
-/
import proofs.«156753_j34445637714059_1_alg».proof.Proof.FrameI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Middle tile: the accumulator entered at `xs0` and left with its pieces written. -/
noncomputable def kernelRun0_B (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : ¬cond0_1 i)
    (x0 x1 : Vec F S1x512x1024 .f32) (xs0 : Vec F S1024x1024 .f32) :
    Σ' (L2 : List (View.Piece (Elt F) S1x1024x1024 .bf16)), { LS0 : List (View.Piece (Elt F) S1024x1024 .f32) //
      ∀ (xi2 : Vec F S1x1024x1024 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨[], ?_, fun xi2 E K => ?run⟩
  case run =>
    simp only [cc0__kv_kernel_eq_skeleton]; unfold cc0__kv_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.FrameI.RunC.lean ====
/-
  Region 0's body at a batch's LAST tile: the tile's product is added to what the point before left in the accumulator, and
  the accumulator is then written out, whole, into the output window's buffer.
-/
import proofs.«156753_j34445637714059_1_alg».proof.Proof.FrameI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Last tile: the accumulator entered at `xs0`; it and the output's buffer are left with their pieces written. -/
noncomputable def kernelRun0_C (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i)
    (x0 x1 : Vec F S1x512x1024 .f32) (xs0 : Vec F S1024x1024 .f32) :
    Σ' (L2 : List (View.Piece (Elt F) S1x1024x1024 .bf16)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__kv_kernel i arg2 harg2 arg3 harg3 arg4 harg4 arg5 harg5) K } := by
  refine ⟨?_, ?_, fun E K => ?run⟩
  case run =>
    simp only [cc0__kv_kernel_eq_skeleton]; unfold cc0__kv_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.FrameI.Region0.lean ====
/-
  Region 0, point by point, at any float instance and at any contents `V` the region finds.

  What the accumulator holds after each point is a recursion on the point: at a batch's first tile, what the first-tile case
  leaves (it does not depend on the point before); at a later tile, what the middle- or last-tile case leaves from what the
  point before left. At a batch's last tile the output window's buffer receives the accumulator; elsewhere it is idle. The
  region's invariant carries the accumulator at exactly those contents from one point to the next; the other scoped buffers
  (the second region's staging buffers) and the generator register ride along untouched.
-/
import proofs.«156753_j34445637714059_1_alg».proof.Proof.FrameI.RunA
import proofs.«156753_j34445637714059_1_alg».proof.Proof.FrameI.RunB
import proofs.«156753_j34445637714059_1_alg».proof.Proof.FrameI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- First tile: the accumulator's pieces cover it. -/
theorem scover0_A (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : cond0_0 i) (hc1 : ¬cond0_1 i) (x0 x1 : Vec F S1x512x1024 .f32) (y : S1024x1024.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1024.size (by sl_kernel_rfl) y
/-- What the first-tile case leaves in the accumulator. -/
def sout0_A (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : cond0_0 i) (hc1 : ¬cond0_1 i) (x0 x1 : Vec F S1x512x1024 .f32) : Vec F S1024x1024 .f32 :=
  VS0.read (Elt F) (VS0.writes (Elt F) VS0.junk (kernelRun0_A c i arg2 harg2 arg3 harg3 arg4 harg4 arg5 harg5 hc0 hc1 x0 x1).2.1)

/-- Middle tile: the accumulator's pieces cover it. -/
theorem scover0_B (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : ¬cond0_1 i) (x0 x1 : Vec F S1x512x1024 .f32) (xs0 : Vec F S1024x1024 .f32) (y : S1024x1024.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1024.size (by sl_kernel_rfl) y
/-- What the middle-tile case leaves in the accumulator. -/
def sout0_B (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : ¬cond0_1 i) (x0 x1 : Vec F S1x512x1024 .f32) (xs0 : Vec F S1024x1024 .f32) : Vec F S1024x1024 .f32 :=
  VS0.read (Elt F) (VS0.writes (Elt F) VS0.junk (kernelRun0_B c i arg2 harg2 arg3 harg3 arg4 harg4 arg5 harg5 hc0 hc1 x0 x1 xs0).2.1)

/-- Last tile: the output buffer's pieces cover it, -/
theorem cover0_C (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i) (x0 x1 : Vec F S1x512x1024 .f32) (xs0 : Vec F S1024x1024 .f32) (y : S1x1024x1024.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1x1024x1024.size (by sl_kernel_rfl) y
/-- what it leaves there, -/
def out0_C (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i) (x0 x1 : Vec F S1x512x1024 .f32) (xs0 : Vec F S1024x1024 .f32) : Vec F S1x1024x1024 .bf16 :=
  VO0.read (Elt F) (VO0.writes (Elt F) VO0.junk (kernelRun0_C c i arg2 harg2 arg3 harg3 arg4 harg4 arg5 harg5 hc0 hc1 x0 x1 xs0).1)
/-- the accumulator's pieces cover it, -/
theorem scover0_C (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i) (x0 x1 : Vec F S1x512x1024 .f32) (xs0 : Vec F S1024x1024 .f32) (y : S1024x1024.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1024.size (by sl_kernel_rfl) y
/-- and what it leaves in the accumulator. -/
def sout0_C (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i) (x0 x1 : Vec F S1x512x1024 .f32) (xs0 : Vec F S1024x1024 .f32) : Vec F S1024x1024 .f32 :=
  VS0.read (Elt F) (VS0.writes (Elt F) VS0.junk (kernelRun0_C c i arg2 harg2 arg3 harg3 arg4 harg4 arg5 harg5 hc0 hc1 x0 x1 xs0).2.1)

/-- A placeholder for the output window's buffer where it is idle: nothing consults it there. -/
def idle2 : Vec F S1x1024x1024 .bf16 := VO0.read (Elt F) (VO0.writes (Elt F) VO0.junk [])

/-- The six staging buffers of the second region, each at some contents: they ride through region 0 untouched. -/
def rest6 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

theorem PhiA0_eq' (c : Dev nD) :
    (Pipeline.ΦA spec0 c : sProp 𝕄) = iprop(iprop((∃ d, owns (c : Thread nD τ) scM0 fullShare d) ∗ rest6 c) ∗ (∃ r, prngReg c r)) := by
  unfold rest6; exact PhiA0_eq c

section Region
variable (V : (c : Dev nD) → (b : Ref sig .tc) → Buf (Elt F) ((c : Thread nD τ).loc b))

/-! ## What the output buffer and the accumulator hold after each point -/

/-- THE ACCUMULATION, by recursion on the point's position `n`: (the output window's buffer, the accumulator) after the body. -/
def outsAt0 (c : Dev nD) : (n : ℕ) → n < cfg0.N → Vec F S1x1024x1024 .bf16 × Vec F S1024x1024 .f32
  | 0, hn => (idle2, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (idle2, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (idle2, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- At a batch's first tile. -/
theorem outsAt0_A (c : Dev nD) (t : Fin cfg0.N) (h0 : t.val % 8 = 0) (h1 : ¬t.val % 8 = 7) :
    outsAt0 V c t.val t.isLt = (idle2, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- At a middle tile, over what the point before left. -/
theorem outsAt0_B (c : Dev nD) (t : Fin cfg0.N) (h0 : ¬t.val % 8 = 0) (h1 : ¬t.val % 8 = 7) :
    outsAt0 V c t.val t.isLt = (idle2, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a batch's last tile, over what the point before left. -/
theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- Before position `n`: at the region's entry the untouched rest as the launch hands it over; afterwards the accumulator at what
    the point before left, the second region's staging buffers at anything, the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest6 c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0 fullShare ((outsAt0 V c n hn).2) ∗ rest6 c) ∗ (∃ r, prngReg c r)) := rfl
theorem PhiS_pos (c : Dev nD) (n : ℕ) (h : n ≤ cfg0.N) (hz : n ≠ 0) :
    PhiS V c n h = iprop(iprop(owns (c : Thread nD τ) scM0 fullShare ((outsAt0 V c (n - 1) (by omega)).2) ∗ rest6 c) ∗ (∃ r, prngReg c r)) := by
  cases n with
  | zero => exact absurd rfl hz
  | succ n => rfl

/-! ## The proof data -/

/-- Region 0's proof data on core `c`: the arrays as found; after the body each input's buffer at its block, the output's at the
    recursion's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the point's position modulo 8 says which case it is in; the invariant hands the body the accumulator
    (at anything at the region's first point, at what the point before left afterwards) and takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS_castSucc V c t, PhiS_zero V c _ _ hz, PhiA0_eq']
      iintro ⟨⟨⟨HS0, Hr6⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_A c _ _ _ _ _ _ _ _ _ _ _ _ _)
          iexact Hr6
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS0, Hr6⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_A c _ _ _ _ _ _ _ _ _ _ _ _ _)
          iexact Hr6
        iexact Hg
      isplitl [Ho]; · iexact Ho
      isplitl [H0]; · iexact H0
      isplitl [H1]; · iexact H1
      iexists _; iexact H2
  · have hz : t.val ≠ 0 := by omega
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS_castSucc V c t, PhiS_pos V c _ _ hz]
      iintro ⟨⟨⟨HS0, Hr6⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_C c _ _ _ _ _ _ _ _ _ _ _ _ _ _)
          iexact Hr6
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS_castSucc V c t, PhiS_pos V c _ _ hz]
      iintro ⟨⟨⟨HS0, Hr6⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr6 Hg]
      · isplitl [HS0 Hr6]
        · isplitl [HS0]
          · unfold owns; iexists _; isplitr
            swap; · iexact HS0
            ipureintro; exact View.read_writes_of_cover _ _ _ _ _ (scover0_B c _ _ _ _ _ _ _ _ _ _ _ _ _ _)
          iexact Hr6
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the untouched rest back: the accumulator's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 64 := N_0; omega), PhiA0_eq']
  iintro ⟨⟨HS0, Hr6⟩, Hg⟩
  isplitl [HS0 Hr6]
  · isplitl [HS0]
    · iexists _; iexact HS0
    iexact Hr6
  iexact Hg

end Region

end Cert.KernelIdeal.Hand

end
-- ==== Proof.FrameI.Run1.lean ====
/-
  Region 1's body, the same at every point: rows of Q (scaled) times the batch's matrix, stored whole into the output window's
  buffer (which the body also loads first, without using what it loads).
-/
import proofs.«156753_j34445637714059_1_alg».proof.Proof.FrameI.Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev r1 : Rect S1x512x1024 := Rect.unit (s := S1x512x1024) ![0, 0, 0] S1x512x1024.size inb_S1x512x1024_S1x512x1024_0_0_0
abbrev r1m : Rect S1x1024x1024 := Rect.unit (s := S1x1024x1024) ![0, 0, 0] S1x1024x1024.size inb_S1x1024x1024_S1x1024x1024_0_0_0

/-- The output window's buffer after the body, from the two input blocks: its one store as a piece. -/
def out1_2 (x0 : Vec F S1x512x1024 .f32) (x1 : Vec F S1x1024x1024 .bf16) : Vec F S1x512x1024 .f32 :=
  View.canon [⟨r1, k1_pay1 (View.ld x0 r1) (View.ld x1 r1m)⟩]

/-- The one store is of the whole buffer. -/
theorem cover1_2 (p0 : Vec F S1x512x1024 .f32) (y : S1x512x1024.Idx) :
    ∃ pc ∈ ([⟨r1, p0⟩] : List (View.Piece (Elt F) S1x512x1024 .f32)), y ∈ pc.1.set :=
  View.cover_of_tiled [⟨r1, p0⟩] S1x512x1024.size (by rfl) y

set_option maxHeartbeats 1000000 in
theorem sound_kernel1 (c : Dev nD) (i : grid1.Coords) (E : Set ℕ) (arg2 : Memref sig .tc .vmem S1x512x1024 .f32) (harg2 : arg2.IsWhole) (arg3 : Memref sig .tc .vmem S1x1024x1024 .bf16) (harg3 : arg3.IsWhole) (arg4 : Memref sig .tc .vmem S1x512x1024 .f32) (harg4 : arg4.IsWhole)
    (x0 : Vec F S1x512x1024 .f32) (x1 : Vec F S1x1024x1024 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out1_2 x0 x1)) -∗ K ⟨⟩))
      ⊢ wp frame (wpE (defs₀ (F := F)) Variants.none c none) E (cc1__out_kernel i arg2 harg2 arg3 harg3 arg4 harg4) K := by
  simp only [cc1__out_kernel_eq_skeleton]; unfold cc1__out_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

end Cert.KernelIdeal.Hand

end
-- ==== Proof.FrameI.Region1.lean ====
/-
  Region 1, at any float instance and at any contents `V` the region finds: one case at every point. After the body the two
  input windows' buffers hold their blocks and the output window's buffer holds the body's one store, computed from those two
  blocks; the invariant is the untouched rest throughout.
-/
import proofs.«156753_j34445637714059_1_alg».proof.Proof.FrameI.Run1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c _ Set.univ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Region

end Cert.KernelIdeal.Hand

end
-- ==== Proof.FrameI.Main.lean ====
/-
  The whole run, at any float instance: @main is region 0 then region 1, with no host operation between them. The unscoped
  buffers' contents at the three boundaries are a fold from the launch memory: region 0 leaves its arrays at what its
  write-backs make of them (so the [8,1024,1024] intermediate is named), region 1 is entered from there and leaves its own
  arrays likewise (so the result is named). Each region is a segment over the thread state "every unscoped buffer at the
  boundary's contents, the generator register at some state, nothing owed". The run ends with every unscoped buffer at the
  last boundary's contents; read at the arguments that is the frame, read at the result it is the value the algebra is about.
-/
import proofs.«156753_j34445637714059_1_alg».proof.Proof.FrameI.Region0
import proofs.«156753_j34445637714059_1_alg».proof.Proof.FrameI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- At region 0's exit (region 1's entry): its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ## The arguments end as launched; the intermediate and the result are what the write-backs leave -/

/-- Region 1 is entered with the first argument as launched (region 0 does not touch it), -/
theorem V2_main_arg0 (c : Dev nD) : V2 m ρ c main_arg0 = m ((c : Thread nD τ).loc main_arg0) :=
  (W2_of_ne m ρ c main_arg0 (by decide)).trans rfl
/-- and with the intermediate at what region 0's write-backs leave. -/
theorem V2_main_v0 (c : Dev nD) : V2 m ρ c main_v0 = (dat0 (V1 m ρ) c).arrAt 2 cfg0.N := W2_arr m ρ c 2

theorem W4_main_arg0 (c : Dev nD) : W4 m ρ c (Proc.devRef .tc main_arg0) = m ((c : Thread nD τ).loc main_arg0) :=
  calc W4 m ρ c (Proc.devRef .tc main_arg0)
    _ = V2 m ρ c main_arg0 := (W4_arr m ρ c 0).trans (((dat1 (V2 m ρ) c).arrAt_in 0 rfl _).trans (A_eq1 (V2 m ρ) c 0))
    _ = m ((c : Thread nD τ).loc main_arg0) := V2_main_arg0 m ρ c
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = V1 m ρ c main_arg1 := (W2_arr m ρ c 0).trans (((dat0 (V1 m ρ) c).arrAt_in 0 rfl _).trans (A_eq0 (V1 m ρ) c 0))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = V1 m ρ c main_arg2 := (W2_arr m ρ c 1).trans (((dat0 (V1 m ρ) c).arrAt_in 1 rfl _).trans (A_eq0 (V1 m ρ) c 1))
    _ = m ((c : Thread nD τ).loc main_arg2) := rfl
theorem W4_main_v1 (c : Dev nD) : W4 m ρ c (Proc.devRef .tc main_v1) = (dat1 (V2 m ρ) c).arrAt 2 cfg1.N := W4_arr m ρ c 2

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m ρ 0 c).Φ (Fin.last _) ⊢ Pipeline.ΦA spec0 c from hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    final state holds each unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME, at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

/-- The same run read at the result too: it ends at what region 1's write-backs leave. -/
theorem run_value : θ_run defs (onTc (τ := τ) (main (F := F))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v1 (by decide))).trans (W4_main_v1 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c)⟩) (run_all m ρ)

end Cert.KernelIdeal.Hand

end
-- ==== Proof.Pieces.lean ====
/-
  What each case of the two bodies leaves in the buffers it stores into, as the stored values' own terms, at any float
  instance.

  Every load and every store of the two bodies goes through the rectangle of the whole buffer at offset zero, so a load reads
  the buffer's contents and the last store leaves exactly its value. Hence:
    * first tile: the accumulator ends as (tile product + cleared accumulator), the cleared value being the all-zero store
      read back;
    * middle and last tile: the accumulator ends as (tile product + what it held);
    * last tile: the output buffer ends as that sum under a leading unit axis;
    * second region: the output buffer ends as the rows-by-matrix product of the two blocks.
-/
import proofs.«156753_j34445637714059_1_alg».proof.Proof.FrameI.Region0
import proofs.«156753_j34445637714059_1_alg».proof.Proof.FrameI.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

/-! ## The whole-buffer rectangles start at zero -/

/-- The offsets of a rank-2 whole-buffer rectangle are all zero. -/
theorem zeros2 : (![0, 0] : Fin 2 → Nat) = fun _ => 0 := by funext a; fin_cases a <;> rfl
/-- The offsets of a rank-3 whole-buffer rectangle are all zero. -/
theorem zeros3 : (![0, 0, 0] : Fin 3 → Nat) = fun _ => 0 := by funext a; fin_cases a <;> rfl

/-! ## Region 0 -/

/-- First tile: the body clears the accumulator, reads the cleared value back, and stores the tile's product added to it. -/
theorem sout0_A_eq (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : cond0_0 i) (hc1 : ¬cond0_1 i) (x0 x1 : Vec F S1x512x1024 .f32) :
    sout0_A c i arg2 harg2 arg3 harg3 arg4 harg4 arg5 harg5 hc0 hc1 x0 x1 = k0_pay2 x0 x1 (k0_pay1 (F := F)) := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S1024x1024) zeros2, View.readCov_unit_zero (S := S1024x1024) _ zeros2]
  simp only [View.readAt_eq_ld, harg2.read_unread, harg3.read_unread, View.ld_unit_zero (S := S1x512x1024) zeros3]

/-- Middle tile: the tile's product added to what the accumulator held. -/
theorem sout0_B_eq (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : ¬cond0_1 i) (x0 x1 : Vec F S1x512x1024 .f32) (xs0 : Vec F S1024x1024 .f32) :
    sout0_B c i arg2 harg2 arg3 harg3 arg4 harg4 arg5 harg5 hc0 hc1 x0 x1 xs0 = k0_pay2 x0 x1 xs0 := by
  unfold sout0_B
  rw [View.read_writes_eq_canon _ _ _ (scover0_B c i arg2 harg2 arg3 harg3 arg4 harg4 arg5 harg5 hc0 hc1 x0 x1 xs0)]
  unfold kernelRun0_B
  dsimp only
  sl_unfold_words
  rw [View.canon_unit_zero (S := S1024x1024) zeros2]
  simp only [View.readAt_eq_ld, harg2.read_unread, harg3.read_unread, harg5.read_unread, View.ld_unit_zero (S := S1x512x1024) zeros3, View.ld_unit_zero (S := S1024x1024) zeros2]

/-- Last tile, the accumulator: the same sum. -/
theorem sout0_C_eq (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i) (x0 x1 : Vec F S1x512x1024 .f32) (xs0 : Vec F S1024x1024 .f32) :
    sout0_C c i arg2 harg2 arg3 harg3 arg4 harg4 arg5 harg5 hc0 hc1 x0 x1 xs0 = k0_pay2 x0 x1 xs0 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero (S := S1024x1024) zeros2]
  simp only [View.readAt_eq_ld, harg2.read_unread, harg3.read_unread, harg5.read_unread, View.ld_unit_zero (S := S1x512x1024) zeros3, View.ld_unit_zero (S := S1024x1024) zeros2]

/-- Last tile, the output buffer: the accumulator just stored, read back and written out under a leading unit axis. -/
theorem out0_C_eq (c : Dev nD) (i : grid0.Coords) (arg2 : Memref sig .tc .vmem S1x512x1024 .f32) (harg2 : arg2.IsWhole) (arg3 : Memref sig .tc .vmem S1x512x1024 .f32) (harg3 : arg3.IsWhole) (arg4 : Memref sig .tc .vmem S1x1024x1024 .bf16) (harg4 : arg4.IsWhole) (arg5 : Memref sig .tc .vmem S1024x1024 .f32) (harg5 : arg5.IsWhole) (hc0 : ¬cond0_0 i) (hc1 : cond0_1 i) (x0 x1 : Vec F S1x512x1024 .f32) (xs0 : Vec F S1024x1024 .f32) :
    out0_C c i arg2 harg2 arg3 harg3 arg4 harg4 arg5 harg5 hc0 hc1 x0 x1 xs0 = k0_pay3 (k0_pay2 x0 x1 xs0) := by
  unfold out0_C
  rw [View.read_writes_eq_canon _ _ _ (cover0_C c i arg2 harg2 arg3 harg3 arg4 harg4 arg5 harg5 hc0 hc1 x0 x1 xs0)]
  unfold kernelRun0_C
  dsimp only
  sl_unfold_words
  rw [View.canon_unit_zero (S := S1x1024x1024) zeros3, View.readCov_unit_zero (S := S1024x1024) _ zeros2]
  simp only [View.readAt_eq_ld, harg2.read_unread, harg3.read_unread, harg5.read_unread, View.ld_unit_zero (S := S1x512x1024) zeros3, View.ld_unit_zero (S := S1024x1024) zeros2]

/-! ## Region 1 -/

/-- The one store: the scaled query rows times the batch's matrix, from the two blocks as loaded whole. -/
theorem out1_2_eq (x0 : Vec F S1x512x1024 .f32) (x1 : Vec F S1x1024x1024 .bf16) : out1_2 x0 x1 = k1_pay1 x0 x1 := by
  unfold out1_2
  rw [View.canon_unit_zero (S := S1x512x1024) zeros3, View.ld_unit_zero (S := S1x512x1024) zeros3, View.ld_unit_zero (S := S1x1024x1024) zeros3]

end Cert.KernelIdeal.Hand

end
-- ==== Proof.Spec.lean ====
/-
  The function both programs compute, over the extended reals, with explicit coordinates.

  With c the scale 1/64 (kept as the 32-bit word both programs print, never evaluated):
    kvAt k v b d e   = Σ_{s < 4096} (k[b,s,d] · c) · v[b,s,e]          (the per-batch matrix Kᵀ V)
    outAt q k v b s e = Σ_{d < 1024} (q[b,s,d] · c) · kvAt k v b d e    (the row of Q · (Kᵀ V))
  and G is outAt read at an index of the [8,4096,1024] array.
-/
import Idealize.ShloMosaic.PureOps.Ideal
import Idealize.ShloMosaic.Lib.ValueIdx

noncomputable section

open scoped BigOperators

namespace Cert.LinAttn

open Idealize.ShloMosaic Idealize.ShloMosaic.ValueIdx

/-- The [8,4096,1024] arrays q, k, v and the result. -/
abbrev SQ : Shape := ⟨3, ![8, 4096, 1024]⟩
/-- The [8,1024,1024] per-batch matrices Kᵀ V. -/
abbrev SKV : Shape := ⟨3, ![8, 1024, 1024]⟩

/-- The scale 1/64 as the f32 word both programs carry. -/
def sc : EReal := Ideal.ofBits .f32 0x3C800000#32

/-- Entry (d,e) of batch b of Kᵀ V, the keys scaled: a sum over all 4096 positions. -/
def kvAt (k v : SQ.Idx → EReal) (b : Fin 8) (d e : Fin 1024) : EReal :=
  ∑ s : Fin 4096, (k (ix3 b s d) * sc) * v (ix3 b s e)

/-- The same matrix as an [8,1024,1024] array. -/
def kvArr (k v : SQ.Idx → EReal) : SKV.Idx → EReal := fun j => kvAt k v (j 0) (j 1) (j 2)

/-- Entry (s,e) of batch b of (Q scaled) · M for any [8,1024,1024] array M. -/
def outOf (q : SQ.Idx → EReal) (M : SKV.Idx → EReal) (b : Fin 8) (s : Fin 4096) (e : Fin 1024) : EReal :=
  ∑ d : Fin 1024, (q (ix3 b s d) * sc) * M (ix3 b d e)

/-- The result at coordinates. -/
def outAt (q k v : SQ.Idx → EReal) (b : Fin 8) (s : Fin 4096) (e : Fin 1024) : EReal :=
  outOf q (kvArr k v) b s e

/-- The result array. -/
def G (q k v : SQ.Idx → EReal) : SQ.Idx → EReal := fun i => outAt q k v (i 0) (i 1) (i 2)

/-- Row r of tile t (tiles of 512 consecutive positions). -/
def tileRow (t : ℕ) (ht : t < 8) (r : Fin 512) : Fin 4096 := ⟨512 * t + r.val, by have := r.isLt; omega⟩

/-- Tile t's share of entry (d,e) of batch b of Kᵀ V: the sum over the tile's 512 positions. -/
def tileKV (k v : SQ.Idx → EReal) (b : Fin 8) (d e : Fin 1024) (t : ℕ) (ht : t < 8) : EReal :=
  ∑ r : Fin 512, (k (ix3 b (tileRow t ht r) d) * sc) * v (ix3 b (tileRow t ht r) e)

/-- The running accumulator after tile n: zero plus tile 0, then one tile added at a time. -/
def accKV (k v : SQ.Idx → EReal) (b : Fin 8) (d e : Fin 1024) : (n : ℕ) → n < 8 → EReal
  | 0, h => 0 + tileKV k v b d e 0 h
  | n + 1, h => accKV k v b d e n (Nat.lt_of_succ_lt h) + tileKV k v b d e (n + 1) h

theorem kvArr_ix3 (k v : SQ.Idx → EReal) (b : Fin 8) (d e : Fin 1024) : kvArr k v (ix3 b d e) = kvAt k v b d e := rfl

theorem G_ix3 (q k v : SQ.Idx → EReal) (b : Fin 8) (s : Fin 4096) (e : Fin 1024) : G q k v (ix3 b s e) = outAt q k v b s e := rfl

end Cert.LinAttn

end
-- ==== Proof.Blocks.lean ====
import proofs.«156753_j34445637714059_1_alg».proof.Proof.FrameI.Region0
import proofs.«156753_j34445637714059_1_alg».proof.Proof.FrameI.Region1
import proofs.«156753_j34445637714059_1_alg».proof.Proof.Spec
import Idealize.ShloMosaic.Lib.Pipeline.Value
import Idealize.ShloMosaic.Lib.ValueIdx

/-
  From blocks to arrays, over the extended reals.

  Both grids are 8 × 8 in row-major order: point t has batch t / 8 and tile t % 8.  A block's
  element sits in its array, on each axis, at block index × block size + its coordinate inside the
  block.  So the [1,512,1024] blocks at block index (b, s, 0) hold rows 512 s … 512 s + 511 of batch
  b, and the [1,1024,1024] blocks at block index (b, 0, 0) hold batch b of the [8,1024,1024] array.

  For an output array: if what every writing point leaves, read at a coordinate of its block, is a
  function M of the array read at the coordinate's place in the array, and the writing points'
  blocks cover the array, then the array ends holding M.  The per-batch matrices are written at
  the points 8 b + 7, which cover batch b; the result is written at every point, and point
  8 b + s covers rows 512 s … 512 s + 511 of batch b.
-/

set_option maxRecDepth 16384

noncomputable section

namespace Cert.LinAttn

open Cert.KernelIdeal Cert.KernelIdeal.Gen Cert.KernelIdeal.Hand
open Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-! ## The index maps over the grids -/

/-- Region 0: the block index of the two input windows at point t is (t / 8, t % 8, 0), the output
    window's is (t / 8, 0, 0). -/
theorem index0 : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- Region 1: the block index of the first input window and of the output window at point t is
    (t / 8, t % 8, 0), the second input window's is (t / 8, 0, 0). -/
theorem index1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = t.val % 8 ∧ win1_2.index t (2 : Fin 3) = 0 :=
  (by decide +kernel : ∀ t : Fin grid1.N, _)

theorem t0_lt (t : Fin cfg0.N) : t.val < 64 := by have := t.isLt; have : cfg0.N = 64 := N_0; omega
theorem t1_lt (t : Fin cfg1.N) : t.val < 64 := by have := t.isLt; have : cfg1.N = 64 := N_1; omega

/-! ## The input blocks read off their arrays -/

/-- Region 0, the keys' block at point t: rows 512 (t % 8) … of batch t / 8. -/
theorem iblk0_0_at (c : Dev nD) (t : Fin cfg0.N) (r : Fin 512) (d : Fin 1024) :
    (iblk0 V c 0 t : S1x512x1024.Idx → EReal) (ix3 (0 : Fin 1) r d)
      = (V c main_arg1 : S8x4096x1024.Idx → EReal)
          (ix3 (⟨t.val / 8, by have := t0_lt t; omega⟩ : Fin 8) (tileRow (t.val % 8) (by omega) r) d) := by
  obtain ⟨e0, e1, e2, -⟩ := index0 t
  unfold iblk0
  rw [View.read_apply]
  show V c main_arg1 _ = V c main_arg1 _
  refine congrArg (V c main_arg1) ?_
  funext a
  apply Fin.ext
  match a with
  | ⟨0, _⟩ => show win0_0.index t (0 : Fin 3) * 1 + 1 * 0 = t.val / 8; omega
  | ⟨1, _⟩ => show win0_0.index t (1 : Fin 3) * 512 + 1 * r.val = 512 * (t.val % 8) + r.val; omega
  | ⟨2, _⟩ => show win0_0.index t (2 : Fin 3) * 1024 + 1 * d.val = d.val; omega

/-- Region 0, the values' block at point t: rows 512 (t % 8) … of batch t / 8. -/
theorem iblk0_1_at (c : Dev nD) (t : Fin cfg0.N) (r : Fin 512) (e : Fin 1024) :
    (iblk0 V c 1 t : S1x512x1024.Idx → EReal) (ix3 (0 : Fin 1) r e)
      = (V c main_arg2 : S8x4096x1024.Idx → EReal)
          (ix3 (⟨t.val / 8, by have := t0_lt t; omega⟩ : Fin 8) (tileRow (t.val % 8) (by omega) r) e) := by
  obtain ⟨-, -, -, e0, e1, e2, -⟩ := index0 t
  unfold iblk0
  rw [View.read_apply]
  show V c main_arg2 _ = V c main_arg2 _
  refine congrArg (V c main_arg2) ?_
  funext a
  apply Fin.ext
  match a with
  | ⟨0, _⟩ => show win0_1.index t (0 : Fin 3) * 1 + 1 * 0 = t.val / 8; omega
  | ⟨1, _⟩ => show win0_1.index t (1 : Fin 3) * 512 + 1 * r.val = 512 * (t.val % 8) + r.val; omega
  | ⟨2, _⟩ => show win0_1.index t (2 : Fin 3) * 1024 + 1 * e.val = e.val; omega

/-- Region 1, the queries' block at point t: rows 512 (t % 8) … of batch t / 8. -/
theorem iblk1_0_at (c : Dev nD) (t : Fin cfg1.N) (r : Fin 512) (d : Fin 1024) :
    (iblk1 V c 0 t : S1x512x1024.Idx → EReal) (ix3 (0 : Fin 1) r d)
      = (V c main_arg0 : S8x4096x1024.Idx → EReal)
          (ix3 (⟨t.val / 8, by have := t1_lt t; omega⟩ : Fin 8) (tileRow (t.val % 8) (by omega) r) d) := by
  obtain ⟨e0, e1, e2, -⟩ := index1 t
  unfold iblk1
  rw [View.read_apply]
  show V c main_arg0 _ = V c main_arg0 _
  refine congrArg (V c main_arg0) ?_
  funext a
  apply Fin.ext
  match a with
  | ⟨0, _⟩ => show win1_0.index t (0 : Fin 3) * 1 + 1 * 0 = t.val / 8; omega
  | ⟨1, _⟩ => show win1_0.index t (1 : Fin 3) * 512 + 1 * r.val = 512 * (t.val % 8) + r.val; omega
  | ⟨2, _⟩ => show win1_0.index t (2 : Fin 3) * 1024 + 1 * d.val = d.val; omega

/-- Region 1, the per-batch matrix's block at point t: batch t / 8 of the [8,1024,1024] array. -/
theorem iblk1_1_at (c : Dev nD) (t : Fin cfg1.N) (d e : Fin 1024) :
    (iblk1 V c 1 t : S1x1024x1024.Idx → EReal) (ix3 (0 : Fin 1) d e)
      = (V c main_v0 : S8x1024x1024.Idx → EReal)
          (ix3 (⟨t.val / 8, by have := t1_lt t; omega⟩ : Fin 8) d e) := by
  obtain ⟨-, -, -, e0, e1, e2, -⟩ := index1 t
  unfold iblk1
  rw [View.read_apply]
  show V c main_v0 _ = V c main_v0 _
  refine congrArg (V c main_v0) ?_
  funext a
  apply Fin.ext
  match a with
  | ⟨0, _⟩ => show win1_1.index t (0 : Fin 3) * 1 + 1 * 0 = t.val / 8; omega
  | ⟨1, _⟩ => show win1_1.index t (1 : Fin 3) * 1024 + 1 * d.val = d.val; omega
  | ⟨2, _⟩ => show win1_1.index t (2 : Fin 3) * 1024 + 1 * e.val = e.val; omega

/-! ## The output arrays -/

/-- An index of the [8,1024,1024] array is in point t's block of region 0's output window iff each
    coordinate is in the block's range on its axis. -/
theorem mem_blk0_2 (t : Fin cfg0.N) (i : S8x1024x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v0).slice (win0_2.rect t)).set ↔ _
  rw [View.set_slice_whole, Rect.mem_set_unit]
  exact Iff.rfl

/-- Every index of the [8,1024,1024] array is in the block of its batch's last point, which writes. -/
theorem cover0_2 (i : S8x1024x1024.Idx) :
    ∃ t : Fin cfg0.N, (cfg0.win 2).flush t = true ∧ i ∈ ((cfg0.win 2).blk t).view.set := by
  have hb : (i 0).val < 8 := (i 0).isLt
  have hd : (i 1).val < 1024 := (i 1).isLt
  have he : (i 2).val < 1024 := (i 2).isLt
  have hN : cfg0.N = 64 := N_0
  have ht : 8 * (i 0).val + 7 < cfg0.N := by omega
  generalize hT : (⟨8 * (i 0).val + 7, ht⟩ : Fin cfg0.N) = t
  have hv : t.val = 8 * (i 0).val + 7 := by rw [← hT]
  refine ⟨t, (flush0_2 t).mpr (by omega), ?_⟩
  obtain ⟨-, -, -, -, -, -, e0, e1, e2⟩ := index0 t
  rw [mem_blk0_2]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1024 ≤ (i 2).val ∧ (i 2).val < win0_2.index t (2 : Fin 3) * 1024 + 1024
    omega

/-- The per-batch matrices: if what each batch's last point leaves in the output window's buffer
    is batch t / 8 of M, the [8,1024,1024] array ends holding M. -/
theorem kv_array (c : Dev nD) (M : SKV.Idx → EReal)
    (h : ∀ t : Fin cfg0.N, t.val % 8 = 7 → ∀ d e : Fin 1024,
      ((dat0 V c).after 2 t : S1x1024x1024.Idx → EReal) (ix3 (0 : Fin 1) d e)
        = M (ix3 (⟨t.val / 8, by have := t0_lt t; omega⟩ : Fin 8) d e)) :
    (dat0 V c).arrAt 2 cfg0.N = M := by
  refine (dat0 V c).arrAt_eq_of_cover 2 M (fun t hf => ?_) (fun i => ?_)
  · have h7 : t.val % 8 = 7 := (flush0_2 t).mp hf
    obtain ⟨-, -, -, -, -, -, e0, e1, e2⟩ := index0 t
    show (cfg0.win 2).cut (grid0.coords t) ((dat0 V c).after 2 t) = _
    funext j
    obtain ⟨z, d, e, rfl⟩ : ∃ (z : Fin 1) (d e : Fin 1024), j = ix3 z d e :=
      ⟨j 0, j 1, j 2, eq_ix3 (n0 := 1) (n1 := 1024) (n2 := 1024) j⟩
    obtain rfl : z = 0 := Subsingleton.elim _ _
    rw [View.read_apply]
    refine (h t h7 d e).trans (congrArg M ?_)
    funext a
    apply Fin.ext
    match a with
    | ⟨0, _⟩ => show t.val / 8 = win0_2.index t (0 : Fin 3) * 1 + 1 * 0; omega
    | ⟨1, _⟩ => show d.val = win0_2.index t (1 : Fin 3) * 1024 + 1 * d.val; omega
    | ⟨2, _⟩ => show e.val = win0_2.index t (2 : Fin 3) * 1024 + 1 * e.val; omega
  · exact cover0_2 i

/-- An index of the [8,4096,1024] array is in point t's block of region 1's output window iff each
    coordinate is in the block's range on its axis. -/
theorem mem_blk1_2 (t : Fin cfg1.N) (i : S8x4096x1024.Idx) :
    i ∈ ((cfg1.win 2).blk t).view.set ↔ ∀ a : Fin 3, win1_2.index t a * S1x512x1024.size a ≤ (i a).val
      ∧ (i a).val < win1_2.index t a * S1x512x1024.size a + S1x512x1024.size a := by
  show i ∈ ((View.whole main_v1).slice (win1_2.rect t)).set ↔ _
  rw [View.set_slice_whole, Rect.mem_set_unit]
  exact Iff.rfl

/-- Every index (b, row, e) of the [8,4096,1024] array is in the block of point 8 b + row / 512,
    and every point writes. -/
theorem cover1_2 (i : S8x4096x1024.Idx) :
    ∃ t : Fin cfg1.N, (cfg1.win 2).flush t = true ∧ i ∈ ((cfg1.win 2).blk t).view.set := by
  have hb : (i 0).val < 8 := (i 0).isLt
  have hr : (i 1).val < 4096 := (i 1).isLt
  have he : (i 2).val < 1024 := (i 2).isLt
  have hN : cfg1.N = 64 := N_1
  have ht : 8 * (i 0).val + (i 1).val / 512 < cfg1.N := by omega
  generalize hT : (⟨8 * (i 0).val + (i 1).val / 512, ht⟩ : Fin cfg1.N) = t
  have hv : t.val = 8 * (i 0).val + (i 1).val / 512 := by rw [← hT]
  refine ⟨t, flush1_2 t, ?_⟩
  obtain ⟨-, -, -, -, -, -, e0, e1, e2⟩ := index1 t
  rw [mem_blk1_2]
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 512 ≤ (i 1).val ∧ (i 1).val < win1_2.index t (1 : Fin 3) * 512 + 512
    omega
  | ⟨2, _⟩ =>
    show win1_2.index t (2 : Fin 3) * 1024 ≤ (i 2).val ∧ (i 2).val < win1_2.index t (2 : Fin 3) * 1024 + 1024
    omega

/-- The result: if what every point leaves in the output window's buffer is rows
    512 (t % 8) … 512 (t % 8) + 511 of batch t / 8 of Gf, the [8,4096,1024] array ends holding Gf. -/
theorem out_array (c : Dev nD) (Gf : SQ.Idx → EReal)
    (h : ∀ (t : Fin cfg1.N) (r : Fin 512) (e : Fin 1024),
      ((dat1 V c).after 2 t : S1x512x1024.Idx → EReal) (ix3 (0 : Fin 1) r e)
        = Gf (ix3 (⟨t.val / 8, by have := t1_lt t; omega⟩ : Fin 8) (tileRow (t.val % 8) (by omega) r) e)) :
    (dat1 V c).arrAt 2 cfg1.N = Gf := by
  refine (dat1 V c).arrAt_eq_of_cover 2 Gf (fun t _ => ?_) (fun i => cover1_2 i)
  obtain ⟨-, -, -, -, -, -, e0, e1, e2⟩ := index1 t
  show (cfg1.win 2).cut (grid1.coords t) ((dat1 V c).after 2 t) = _
  funext j
  obtain ⟨z, r, e, rfl⟩ : ∃ (z : Fin 1) (r : Fin 512) (e : Fin 1024), j = ix3 z r e :=
    ⟨j 0, j 1, j 2, eq_ix3 (n0 := 1) (n1 := 512) (n2 := 1024) j⟩
  obtain rfl : z = 0 := Subsingleton.elim _ _
  rw [View.read_apply]
  refine (h t r e).trans (congrArg Gf ?_)
  funext a
  apply Fin.ext
  match a with
  | ⟨0, _⟩ => show t.val / 8 = win1_2.index t (0 : Fin 3) * 1 + 1 * 0; omega
  | ⟨1, _⟩ => show 512 * (t.val % 8) + r.val = win1_2.index t (1 : Fin 3) * 512 + 1 * r.val; omega
  | ⟨2, _⟩ => show e.val = win1_2.index t (2 : Fin 3) * 1024 + 1 * e.val; omega

end Cert.LinAttn

end
-- ==== Proof.Payloads.lean ====
/-
  The four values the kernel's two bodies store, read at an index, over the extended reals.

  With c the scale word (never evaluated):
    * the first body's opening store writes the all-zero [1024,1024] matrix;
    * its running store writes  a[d,e] + Σ_{r<512} (x0[0,r,d] · c) · x1[0,r,e]  (a the accumulator read before,
      x0 / x1 the current 512-row tiles of keys / values): a product contracting the ROW axis of both tiles;
    * its closing store writes the accumulator unchanged, with a leading unit axis;
    * the second body's store writes  Σ_{d<1024} (x0[0,r,d] · c) · x5[0,d,e]  (x0 the 512-row tile of queries,
      x5 the [1,1024,1024] matrix): an ordinary rows-by-columns product.
  Every operation is exact at this instance, a narrowing of the float format is the identity, and a cast between
  [1,n,m] and [n,m] keeps the row-major position.
-/
import proofs.«156753_j34445637714059_1_alg».proof.Proof.Gen.KernelIdeal.Skeleton
import proofs.«156753_j34445637714059_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LinAttn

open Cert.KernelIdeal Cert.KernelIdeal.Gen Idealize.ShloMosaic Idealize.ShloMosaic.ValueIdx

/-! ## The product contracting the row axis of both operands: out[d,e] = Σ_r lhs[r,d] · rhs[r,e] -/

/-- The left operand's row coordinate is the contraction position. -/
theorem dotT_lhs0 (j : S1024x1024.Idx) (q : dot_S512x1024_S512x1024_S1024x1024_0_0_1_1_n_n.contr.Idx) :
    (dot_S512x1024_S512x1024_S1024x1024_0_0_1_1_n_n.lhsIdx j q 0).val = (q ⟨0, by decide⟩).val :=
  dot_S512x1024_S512x1024_S1024x1024_0_0_1_1_n_n.lhsIdx_val_of_single rfl j q

/-- The left operand's column coordinate is the result's row coordinate. -/
theorem dotT_lhs1 (j : S1024x1024.Idx) (q : dot_S512x1024_S512x1024_S1024x1024_0_0_1_1_n_n.contr.Idx) :
    (dot_S512x1024_S512x1024_S1024x1024_0_0_1_1_n_n.lhsIdx j q 1).val = (j 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl

/-- The right operand's row coordinate is the contraction position. -/
theorem dotT_rhs0 (j : S1024x1024.Idx) (q : dot_S512x1024_S512x1024_S1024x1024_0_0_1_1_n_n.contr.Idx) :
    (dot_S512x1024_S512x1024_S1024x1024_0_0_1_1_n_n.rhsIdx j q 0).val = (q ⟨0, by decide⟩).val :=
  dot_S512x1024_S512x1024_S1024x1024_0_0_1_1_n_n.rhsIdx_val_of_single rfl j q

/-- The right operand's column coordinate is the result's column coordinate. -/
theorem dotT_rhs1 (j : S1024x1024.Idx) (q : dot_S512x1024_S512x1024_S1024x1024_0_0_1_1_n_n.contr.Idx) :
    (dot_S512x1024_S512x1024_S1024x1024_0_0_1_1_n_n.rhsIdx j q 1).val = (j 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- Into the all-zero accumulator, at (d,e): the sum over the 512 shared rows. -/
theorem matmulT_zero_apply (l w : FVec Ideal S512x1024 .bf16) (d e : Fin 1024) :
    matmul dot_S512x1024_S512x1024_S1024x1024_0_0_1_1_n_n none l w (constant S1024x1024 .f32 0x00000000#32) (ix2 d e)
      = ∑ r : Fin 512, l (ix2 r d) * w (ix2 r e) := by
  refine (Ideal.matmul_constant_zero_apply dot_S512x1024_S512x1024_S1024x1024_0_0_1_1_n_n none l w (ix2 d e)).trans ?_
  rw [← Equiv.sum_comp (contrEquiv1 dot_S512x1024_S512x1024_S1024x1024_0_0_1_1_n_n 512 rfl rfl).symm]
  refine Finset.sum_congr rfl fun r _ => ?_
  have hr := contrEquiv1_symm_val dot_S512x1024_S512x1024_S1024x1024_0_0_1_1_n_n 512 rfl rfl r
  have el : dot_S512x1024_S512x1024_S1024x1024_0_0_1_1_n_n.lhsIdx (ix2 d e) ((contrEquiv1 dot_S512x1024_S512x1024_S1024x1024_0_0_1_1_n_n 512 rfl rfl).symm r) = ix2 r d := funext fun a => Fin.ext (by
    match a with
    | ⟨0, _⟩ => exact (dotT_lhs0 _ _).trans hr
    | ⟨1, _⟩ => exact dotT_lhs1 _ _)
  have er : dot_S512x1024_S512x1024_S1024x1024_0_0_1_1_n_n.rhsIdx (ix2 d e) ((contrEquiv1 dot_S512x1024_S512x1024_S1024x1024_0_0_1_1_n_n 512 rfl rfl).symm r) = ix2 r e := funext fun a => Fin.ext (by
    match a with
    | ⟨0, _⟩ => exact (dotT_rhs0 _ _).trans hr
    | ⟨1, _⟩ => exact dotT_rhs1 _ _)
  rw [el, er]

/-! ## The rows-by-columns product: out[r,e] = Σ_d lhs[r,d] · rhs[d,e] -/

/-- The left operand's row coordinate is the result's row coordinate. -/
theorem dotR_lhs0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

/-- The left operand's column coordinate is the contraction position. -/
theorem dotR_lhs1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q

/-- The right operand's row coordinate is the contraction position. -/
theorem dotR_rhs0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q

/-- The right operand's column coordinate is the result's column coordinate. -/
theorem dotR_rhs1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- Into the all-zero accumulator, at (r,e): the sum over the 1024 shared coordinates. -/
theorem matmulR_zero_apply (l : FVec Ideal S512x1024 .bf16) (w : FVec Ideal S1024x1024 .bf16) (r : Fin 512) (e : Fin 1024) :
    matmul dot_S512x1024_S1024x1024_S512x1024_1_0_0_1_n_n none l w (constant S512x1024 .f32 0x00000000#32) (ix2 r e)
      = ∑ d : Fin 1024, l (ix2 r d) * w (ix2 d e) := by
  refine (Ideal.matmul_constant_zero_apply dot_S512x1024_S1024x1024_S512x1024_1_0_0_1_n_n none l w (ix2 r e)).trans ?_
  rw [← Equiv.sum_comp (contrEquiv1 dot_S512x1024_S1024x1024_S512x1024_1_0_0_1_n_n 1024 rfl rfl).symm]
  refine Finset.sum_congr rfl fun d _ => ?_
  have hd := contrEquiv1_symm_val dot_S512x1024_S1024x1024_S512x1024_1_0_0_1_n_n 1024 rfl rfl d
  have el : dot_S512x1024_S1024x1024_S512x1024_1_0_0_1_n_n.lhsIdx (ix2 r e) ((contrEquiv1 dot_S512x1024_S1024x1024_S512x1024_1_0_0_1_n_n 1024 rfl rfl).symm d) = ix2 r d := funext fun a => Fin.ext (by
    match a with
    | ⟨0, _⟩ => exact dotR_lhs0 _ _
    | ⟨1, _⟩ => exact (dotR_lhs1 _ _).trans hd)
  have er : dot_S512x1024_S1024x1024_S512x1024_1_0_0_1_n_n.rhsIdx (ix2 r e) ((contrEquiv1 dot_S512x1024_S1024x1024_S512x1024_1_0_0_1_n_n 1024 rfl rfl).symm d) = ix2 d e := funext fun a => Fin.ext (by
    match a with
    | ⟨0, _⟩ => exact (dotR_rhs0 _ _).trans hd
    | ⟨1, _⟩ => exact dotR_rhs1 _ _)
  rw [el, er]

/-! ## The scaled tile: a [1,512,1024] block cast to [512,1024], times the scale, narrowed -/

/-- At (r,d): the block's entry (0,r,d) times the scale. -/
theorem scaled_apply (x : Vec Ideal S1x512x1024 .f32) (r : Fin 512) (d : Fin 1024) :
    (truncf .bf16 (mulf (shapeCast S512x1024 x shapeCasts_S1x512x1024_S512x1024)
        (broadcast S512x1024 (Scalar.ofBits (F := Ideal) .f32 0x3C800000#32))) bitsLt_bf16_f32 : FVec Ideal S512x1024 .bf16) (ix2 r d)
      = x (ix3 (0 : Fin 1) r d) * sc :=
  congrArg (· * sc) (shapeCast_1ab_ab_apply x shapeCasts_S1x512x1024_S512x1024 r d)

/-! ## The four stored values -/

/-- The opening store writes zero everywhere. -/
theorem pay_zero (d e : Fin 1024) : k0_pay1 (F := Ideal) (ix2 d e) = 0 := by
  unfold k0_pay1
  refine (congrFun (shapeCast_self _ shapeCasts_S1024x1024_S1024x1024) (ix2 d e)).trans ?_
  exact Ideal.ofBits_zero_f32

/-- The running store: the accumulator plus the tile's share. -/
theorem pay_acc (x0 x1 : Vec Ideal S1x512x1024 .f32) (a : Vec Ideal S1024x1024 .f32) (d e : Fin 1024) :
    k0_pay2 (F := Ideal) x0 x1 a (ix2 d e)
      = a (ix2 d e) + ∑ r : Fin 512, (x0 (ix3 (0 : Fin 1) r d) * sc) * x1 (ix3 (0 : Fin 1) r e) := by
  unfold k0_pay2
  refine (congrFun (shapeCast_self _ shapeCasts_S1024x1024_S1024x1024) (ix2 d e)).trans ?_
  refine congrArg (a (ix2 d e) + ·) ?_
  refine (matmulT_zero_apply _ _ d e).trans ?_
  refine Finset.sum_congr rfl fun r _ => ?_
  exact congrArg₂ (· * ·) (scaled_apply x0 r d) (shapeCast_1ab_ab_apply x1 shapeCasts_S1x512x1024_S512x1024 r e)

/-- The closing store: the accumulator, under a leading unit axis. -/
theorem pay_out (a : Vec Ideal S1024x1024 .f32) (d e : Fin 1024) :
    k0_pay3 (F := Ideal) a (ix3 (0 : Fin 1) d e) = a (ix2 d e) := by
  unfold k0_pay3
  exact shapeCast_ab_1ab_apply _ shapeCasts_S1024x1024_S1x1024x1024 (0 : Fin 1) d e

/-- The second body's store: the scaled query tile times the matrix. -/
theorem pay_rows (x0 : Vec Ideal S1x512x1024 .f32) (x5 : Vec Ideal S1x1024x1024 .bf16) (r : Fin 512) (e : Fin 1024) :
    k1_pay1 (F := Ideal) x0 x5 (ix3 (0 : Fin 1) r e)
      = ∑ d : Fin 1024, (x0 (ix3 (0 : Fin 1) r d) * sc) * x5 (ix3 (0 : Fin 1) d e) := by
  unfold k1_pay1
  refine (shapeCast_ab_1ab_apply _ shapeCasts_S512x1024_S1x512x1024 (0 : Fin 1) r e).trans ?_
  refine (matmulR_zero_apply _ _ r e).trans ?_
  refine Finset.sum_congr rfl fun d _ => ?_
  exact congrArg₂ (· * ·) (scaled_apply x0 r d) (shapeCast_1ab_ab_apply x5 shapeCasts_S1x1024x1024_S1024x1024 d e)

end Cert.LinAttn

end
-- ==== Proof.TileLaw.lean ====
import proofs.«156753_j34445637714059_1_alg».proof.Proof.Spec
import Mathlib.Algebra.BigOperators.Fin
import Mathlib.Algebra.BigOperators.Group.Finset.Basic
import Mathlib.Logic.Equiv.Fin.Basic
import Mathlib.Data.EReal.Operations

/-
  The tile law: zero plus eight tiles of 512 consecutive positions, added left to right, is the
  sum over all 4096 positions.

  Three steps.  (1) A sum over 4096 = 8 · 512 points is the sum over 8 blocks of the sums over the
  512 points 512·t + r of block t (the standard bijection between pairs (t, r) and points).
  (2) The running accumulator after tile n is the sum of tiles 0..n (induction on n; the leading
  zero is absorbed by 0 + x = x).  (3) At n = 7 the two agree.  Only the laws of an additive
  commutative monoid are used.
-/

noncomputable section

open scoped BigOperators

namespace Cert.LinAttn

open Idealize.ShloMosaic Idealize.ShloMosaic.ValueIdx

/-- A sum over 4096 points as 8 blocks of 512 consecutive points. -/
theorem sum_blocks {M : Type*} [AddCommMonoid M] (f : Fin 4096 → M) :
    ∑ t : Fin 8, ∑ r : Fin 512, f ⟨512 * t.val + r.val, by have := t.isLt; have := r.isLt; omega⟩
      = ∑ s : Fin 4096, f s := by
  rw [← Fintype.sum_prod_type']
  refine Fintype.sum_equiv (finProdFinEquiv (m := 8) (n := 512)) _ _ fun x => ?_
  refine congrArg f (Fin.ext ?_)
  show 512 * x.1.val + x.2.val = x.2.val + 512 * x.1.val
  exact Nat.add_comm _ _

/-- Tile t's share as a sum of the summand of kvAt over the tile's block of positions. -/
theorem tileKV_eq (k v : SQ.Idx → EReal) (b : Fin 8) (d e : Fin 1024) (t : Fin 8) :
    tileKV k v b d e t.val t.isLt
      = ∑ r : Fin 512, (fun s : Fin 4096 => (k (ix3 b s d) * sc) * v (ix3 b s e))
          ⟨512 * t.val + r.val, by have := t.isLt; have := r.isLt; omega⟩ := rfl

/-- The running accumulator after tile n is the sum of tiles 0, …, n. -/
theorem accKV_eq_sum (k v : SQ.Idx → EReal) (b : Fin 8) (d e : Fin 1024) :
    ∀ (n : ℕ) (h : n < 8), accKV k v b d e n h
      = ∑ t ∈ Finset.range (n + 1), (if ht : t < 8 then tileKV k v b d e t ht else 0)
  | 0, h => by
      rw [Finset.sum_range_one, dif_pos h]
      show 0 + tileKV k v b d e 0 h = _
      rw [zero_add]
  | n + 1, h => by
      rw [Finset.sum_range_succ, dif_pos h, ← accKV_eq_sum k v b d e n (Nat.lt_of_succ_lt h)]
      rfl

/-- Zero plus the eight tiles, added left to right, is the sum over all 4096 positions. -/
theorem accKV_last (k v : SQ.Idx → EReal) (b : Fin 8) (d e : Fin 1024) :
    accKV k v b d e 7 (by norm_num) = kvAt k v b d e := by
  rw [accKV_eq_sum, Finset.sum_range]
  unfold kvAt
  rw [← sum_blocks (fun s : Fin 4096 => (k (ix3 b s d) * sc) * v (ix3 b s e))]
  refine Finset.sum_congr rfl fun t _ => ?_
  rw [dif_pos t.isLt, tileKV_eq]

end Cert.LinAttn

end
-- ==== Proof.AccValue.lean ====
/-
  Region 0's value at the ideal instance. With k and v the arrays the region finds, the accumulator after the point of batch b
  and tile s holds, at (d,e), zero plus the first s+1 tiles' shares of (Kᵀ V)[b,d,e] added left to right: by induction on s —
  the first tile's case clears and adds, a later tile's case adds to what the point before left. At a batch's last tile the
  output window's buffer receives the accumulator, which by then is the whole sum over the 4096 positions; those blocks
  cover the [8,1024,1024] array, which therefore ends as Kᵀ V.
-/
import proofs.«156753_j34445637714059_1_alg».proof.Proof.Pieces
import proofs.«156753_j34445637714059_1_alg».proof.Proof.Blocks
import proofs.«156753_j34445637714059_1_alg».proof.Proof.Payloads
import proofs.«156753_j34445637714059_1_alg».proof.Proof.TileLaw

noncomputable section

open scoped BigOperators

namespace Cert.LinAttn

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- The two input windows' blocks at a point, as vectors of their literal shape. -/
abbrev kblk (c : Dev nD) (t : Fin cfg0.N) : Vec Ideal S1x512x1024 .f32 := iblk0 V c 0 t
abbrev vblk (c : Dev nD) (t : Fin cfg0.N) : Vec Ideal S1x512x1024 .f32 := iblk0 V c 1 t
/-- The arrays region 0 finds, as functions of an [8,4096,1024] index. -/
abbrev kArr (c : Dev nD) : SQ.Idx → EReal := V c main_arg1
abbrev vArr (c : Dev nD) : SQ.Idx → EReal := V c main_arg2

/-- The components of a pair known by an equation (no term is unfolded to find them). -/
theorem snd_of_eq {α β : Type} {p : α × β} {a : α} {b : β} (h : p = (a, b)) : p.2 = b := by subst h; rfl
theorem fst_of_eq {α β : Type} {p : α × β} {a : α} {b : β} (h : p = (a, b)) : p.1 = a := by subst h; rfl

/-- One term of a tile's share does not care how its batch and row are spelt. -/
theorem tile_term (k v : SQ.Idx → EReal) (b b' : Fin 8) (row row' : Fin 4096) (d e : Fin 1024) (hb : b' = b) (hr : row' = row) :
    (k (ix3 b' row' d) * sc) * v (ix3 b' row' e) = (k (ix3 b row d) * sc) * v (ix3 b row e) := by
  subst hb; subst hr; rfl

/-- The tile's share, read through the two input windows' blocks at the point of batch `b`, tile `s`. -/
theorem tile_at (c : Dev nD) (b : Fin 8) (s : ℕ) (hs : s < 8) (t : Fin cfg0.N) (ht : t.val = 8 * b.val + s) (d e : Fin 1024) :
    (∑ r : Fin 512, (kblk V c t (ix3 (0 : Fin 1) r d) * sc) * vblk V c t (ix3 (0 : Fin 1) r e))
      = tileKV (kArr V c) (vArr V c) b d e s hs := by
  unfold tileKV
  refine Finset.sum_congr rfl fun r _ => ?_
  refine (congrArg₂ (fun x y => (x * sc) * y) (iblk0_0_at V c t r d) (iblk0_1_at V c t r e)).trans ?_
  exact tile_term (kArr V c) (vArr V c) b _ (tileRow s hs r) _ d e (Fin.ext (by show t.val / 8 = b.val; omega))
    (Fin.ext (by show 512 * (t.val % 8) + r.val = 512 * s + r.val; have : t.val % 8 = s := by omega
                 rw [this]))

/-- A step of the accumulation over plain vectors: the payload at (d,e) is the old entry plus the tile's share. -/
theorem acc_step (x0 x1 : Vec Ideal S1x512x1024 .f32) (a : Vec Ideal S1024x1024 .f32) (A T : EReal) (d e : Fin 1024)
    (ha : a (ix2 d e) = A) (hT : (∑ r : Fin 512, (x0 (ix3 (0 : Fin 1) r d) * sc) * x1 (ix3 (0 : Fin 1) r e)) = T) :
    k0_pay2 (F := Ideal) x0 x1 a (ix2 d e) = A + T := by
  rw [pay_acc, ha, hT]

/-- The accumulator after a batch's first tile: zero plus the tile's share. -/
theorem acc_first (c : Dev nD) (t : Fin cfg0.N) (h0 : t.val % 8 = 0) (T : EReal) (d e : Fin 1024)
    (hT : (∑ r : Fin 512, (kblk V c t (ix3 (0 : Fin 1) r d) * sc) * vblk V c t (ix3 (0 : Fin 1) r e)) = T) :
    (outsAt0 V c t.val t.isLt).2 (ix2 d e) = 0 + T := by
  have h1 : ¬t.val % 8 = 7 := by omega
  refine (congrFun (snd_of_eq (outsAt0_A V c t h0 h1)) (ix2 d e)).trans ?_
  refine (congrFun (sout0_A_eq c (grid0.coords t) (ms0_0 t) (hs0_0 t) (ms0_1 t) (hs0_1 t) (ms0_2 t) (hs0_2 t) scM0 (Memref.isWhole_whole _) ((hcond0_0 t).mpr h0) (fun h => h1 ((hcond0_1 t).mp h)) (kblk V c t) (vblk V c t)) (ix2 d e)).trans ?_
  exact acc_step (kblk V c t) (vblk V c t) (k0_pay1 (F := Ideal)) 0 T d e (pay_zero d e) hT

/-- The accumulator after a later tile: what the point before left plus the tile's share. -/
theorem acc_later (c : Dev nD) (t : Fin cfg0.N) (h0 : ¬t.val % 8 = 0) (A T : EReal) (d e : Fin 1024)
    (hA : (outsAt0 V c (t.val - 1) (Nat.lt_of_le_of_lt (Nat.sub_le _ _) t.isLt)).2 (ix2 d e) = A)
    (hT : (∑ r : Fin 512, (kblk V c t (ix3 (0 : Fin 1) r d) * sc) * vblk V c t (ix3 (0 : Fin 1) r e)) = T) :
    (outsAt0 V c t.val t.isLt).2 (ix2 d e) = A + T := by
  by_cases h1 : t.val % 8 = 7
  · refine (congrFun (snd_of_eq (outsAt0_C V c t h0 h1)) (ix2 d e)).trans ?_
    refine (congrFun (sout0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h1) (kblk V c t) (vblk V c t) (outsAt0 V c (t.val - 1) (Nat.lt_of_le_of_lt (Nat.sub_le _ _) t.isLt)).2) (ix2 d e)).trans ?_
    exact acc_step (kblk V c t) (vblk V c t) _ A T d e hA hT
  · refine (congrFun (snd_of_eq (outsAt0_B V c t h0 h1)) (ix2 d e)).trans ?_
    refine (congrFun (sout0_B_eq c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (kblk V c t) (vblk V c t) (outsAt0 V c (t.val - 1) (Nat.lt_of_le_of_lt (Nat.sub_le _ _) t.isLt)).2) (ix2 d e)).trans ?_
    exact acc_step (kblk V c t) (vblk V c t) _ A T d e hA hT

/-- The accumulator does not care how its position is spelt. -/
theorem acc_congr (c : Dev nD) {n n' : ℕ} (h : n = n') (hn : n < cfg0.N) (hn' : n' < cfg0.N) :
    (outsAt0 V c n hn).2 = (outsAt0 V c n' hn').2 := by subst h; rfl

/-- THE ACCUMULATOR: after the point `t` of batch `b`, tile `s`. -/
theorem acc_at (c : Dev nD) (b : Fin 8) : ∀ (s : ℕ) (hs : s < 8) (t : Fin cfg0.N), t.val = 8 * b.val + s → ∀ (d e : Fin 1024),
    (outsAt0 V c t.val t.isLt).2 (ix2 d e) = accKV (kArr V c) (vArr V c) b d e s hs
  | 0, hs, t, ht, d, e =>
    acc_first V c t (by omega) _ d e (tile_at V c b 0 hs t ht d e)
  | s + 1, hs, t, ht, d, e => by
    have hlt : t.val - 1 < cfg0.N := Nat.lt_of_le_of_lt (Nat.sub_le _ _) t.isLt
    have ih := acc_at c b s (Nat.lt_of_succ_lt hs) ⟨t.val - 1, hlt⟩ (by show t.val - 1 = 8 * b.val + s; omega) d e
    exact acc_later V c t (by omega) _ _ d e ih (tile_at V c b (s + 1) hs t ht d e)

/-- At a batch's last tile the output window's buffer is the accumulator. -/
theorem out_is_acc (c : Dev nD) (t : Fin cfg0.N) (h1 : t.val % 8 = 7) (d e : Fin 1024) :
    ((dat0 V c).after 2 t : Vec Ideal S1x1024x1024 .bf16) (ix3 (0 : Fin 1) d e) = (outsAt0 V c t.val t.isLt).2 (ix2 d e) := by
  have h0 : ¬t.val % 8 = 0 := by omega
  have eo := fst_of_eq (outsAt0_C V c t h0 h1)
  have es := snd_of_eq (outsAt0_C V c t h0 h1)
  refine (congrFun ((after0_2 V c t).trans eo) (ix3 (0 : Fin 1) d e)).trans ?_
  refine (congrFun (out0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h1) (kblk V c t) (vblk V c t) (outsAt0 V c (t.val - 1) (Nat.lt_of_le_of_lt (Nat.sub_le _ _) t.isLt)).2) (ix3 (0 : Fin 1) d e)).trans ?_
  refine (pay_out _ d e).trans ?_
  exact (congrFun (es.trans (sout0_C_eq c (grid0.coords t) (ms0_0 t) (hs0_0 t) (ms0_1 t) (hs0_1 t) (ms0_2 t) (hs0_2 t) scM0 (Memref.isWhole_whole _) (fun h => h0 ((hcond0_0 t).mp h)) ((hcond0_1 t).mpr h1) (kblk V c t) (vblk V c t) (outsAt0 V c (t.val - 1) (Nat.lt_of_le_of_lt (Nat.sub_le _ _) t.isLt)).2)) (ix2 d e)).symm

/-- THE INTERMEDIATE ARRAY after region 0: Kᵀ V of the arrays the region finds. -/
theorem kv_final (c : Dev nD) : (dat0 V c).arrAt 2 cfg0.N = kvArr (kArr V c) (vArr V c) := by
  refine kv_array V c (kvArr (kArr V c) (vArr V c)) fun t h1 d e => ?_
  have hN : t.val < 64 := lt_of_lt_of_eq t.isLt (show cfg0.N = 64 from N_0)
  refine (out_is_acc V c t h1 d e).trans ?_
  refine (acc_at V c ⟨t.val / 8, by omega⟩ 7 (by norm_num) t (by show t.val = 8 * (t.val / 8) + 7; omega) d e).trans ?_
  exact accKV_last (kArr V c) (vArr V c) _ d e

end Cert.LinAttn

end
-- ==== Proof.OutValue.lean ====
/-
  Region 1's value at the ideal instance. At the point of batch b and tile s the output window's buffer receives, at row r and
  column e, the sum over d of (q[b, 512 s + r, d] · c) · M[b,d,e], where q and M are the arrays the region finds; those blocks
  cover the [8,4096,1024] result, which therefore ends as (Q scaled) · M, batch by batch.
-/
import proofs.«156753_j34445637714059_1_alg».proof.Proof.Pieces
import proofs.«156753_j34445637714059_1_alg».proof.Proof.Blocks
import proofs.«156753_j34445637714059_1_alg».proof.Proof.Payloads

noncomputable section

open scoped BigOperators

namespace Cert.LinAttn

open Cert.KernelIdeal Cert.KernelIdeal.Gen Cert.KernelIdeal.Hand
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-- (Q scaled) · M as an [8,4096,1024] array. -/
def outArr (q : SQ.Idx → EReal) (M : SKV.Idx → EReal) : SQ.Idx → EReal := fun i => outOf q M (i 0) (i 1) (i 2)

abbrev qblk (c : Dev nD) (t : Fin cfg1.N) : Vec Ideal S1x512x1024 .f32 := iblk1 V c 0 t
abbrev mblk (c : Dev nD) (t : Fin cfg1.N) : Vec Ideal S1x1024x1024 .bf16 := iblk1 V c 1 t
abbrev qArr (c : Dev nD) : SQ.Idx → EReal := V c main_arg0
abbrev mArr (c : Dev nD) : SKV.Idx → EReal := V c main_v0

/-- THE RESULT ARRAY after region 1. -/
theorem out_final (c : Dev nD) : (dat1 V c).arrAt 2 cfg1.N = outArr (qArr V c) (mArr V c) := by
  refine out_array V c (outArr (qArr V c) (mArr V c)) fun t r e => ?_
  refine (congrFun ((after1_2 V c t).trans (out1_2_eq (qblk V c t) (mblk V c t))) (ix3 (0 : Fin 1) r e)).trans ?_
  refine (pay_rows (qblk V c t) (mblk V c t) r e).trans ?_
  show _ = outOf (qArr V c) (mArr V c) _ _ _
  unfold outOf
  refine Finset.sum_congr rfl fun d _ => ?_
  exact congrArg₂ (fun x y => (x * sc) * y) (iblk1_0_at V c t r d) (iblk1_1_at V c t d e)

end Cert.LinAttn

end
-- ==== Proof.KernelValue.lean ====
/-
  The idealized kernel's run with its result named: the result array ends as G of the three argument arrays. Region 1 is
  entered with q as launched and with the intermediate array at what region 0's write-backs left, which is Kᵀ V of k and v as
  launched; region 1 then leaves (Q scaled) · (Kᵀ V), which is G by definition.
-/
import proofs.«156753_j34445637714059_1_alg».proof.Proof.FrameI.Main
import proofs.«156753_j34445637714059_1_alg».proof.Proof.AccValue
import proofs.«156753_j34445637714059_1_alg».proof.Proof.OutValue

noncomputable section

namespace Cert.LinAttn

open Cert.KernelIdeal Cert.KernelIdeal.Gen Cert.KernelIdeal.Hand
open Idealize.ShloMosaic Idealize.ShloMosaic.ValueIdx Idealize.ShloMosaic.TcCoe Idealize.SL.Sem

variable (m : (ℓ : Loc nD τ sig) → Buf (Elt Ideal) ℓ) (ρ : Dev nD → PrngReg)

/-- What region 1's write-backs leave is G of the launch contents of q, k, v. -/
theorem result_is_G (c : Dev nD) :
    (dat1 (V2 m ρ) c).arrAt 2 cfg1.N
      = G (m ((c.tc : Thread nD τ).loc main_arg0)) (m ((c.tc : Thread nD τ).loc main_arg1)) (m ((c.tc : Thread nD τ).loc main_arg2)) := by
  refine (out_final (V2 m ρ) c).trans ?_
  have hq : qArr (V2 m ρ) c = m ((c.tc : Thread nD τ).loc main_arg0) := V2_main_arg0 m ρ c
  have hm : mArr (V2 m ρ) c = kvArr (m ((c.tc : Thread nD τ).loc main_arg1)) (m ((c.tc : Thread nD τ).loc main_arg2)) :=
    (V2_main_v0 m ρ c).trans (kv_final (V1 m ρ) c)
  rw [hq, hm]
  rfl

/-- The idealized kernel's run: the result at G, the arguments unchanged. -/
theorem kernel_run : θ_run (defs (F := Ideal)) (onTc (τ := τ) (main (F := Ideal))) ⟨m, fun _ => 0, ρ⟩ (fun r => ∀ c : Dev nD,
      r.2.mem ((c.tc : Thread nD τ).loc main_v1) = G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_is_G m ρ c), (h c).2⟩) (run_value (F := Ideal) m ρ)

end Cert.LinAttn

end
-- ==== Proof.RefValue.lean ====
import proofs.«156753_j34445637714059_1_alg».proof.Proof.Gen.ReferenceIdeal.Read
import proofs.«156753_j34445637714059_1_alg».proof.Proof.Spec
import Idealize.ShloMosaic.Lib.ValueIdx
import Idealize.ShloMosaic.Lib.Pipeline.Value
import Idealize.ShloMosaic.PureOps.Ideal.Laws

/-
  The reference program computes the function G of the specification.

  Read index by index, its last operation is the sum over d of (q[b,s,d] · c) times the entry
  (b,d,e) of the previous product, which is itself the sum over s of (k[b,s,d] · c) · v[b,s,e];
  the scale c enters both factors as a broadcast scalar constant.  That is outAt q k v b s e.
-/

noncomputable section

open scoped BigOperators

namespace Cert.LinAttn.Ref

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx Cert.LinAttn

/-- The left index of the outer product at coordinates. -/
theorem lidx5_ix3 (b : Fin 8) (s : Fin 4096) (e : Fin 1024) (d : Fin 1024) :
    lidx_main_v5 (ix3 b s e) d = ix3 b s d :=
  funext fun a => Fin.ext (by match a with | ⟨0, _⟩ => rfl | ⟨1, _⟩ => rfl | ⟨2, _⟩ => rfl)

/-- The right index of the outer product at coordinates. -/
theorem ridx5_ix3 (b : Fin 8) (s : Fin 4096) (e : Fin 1024) (d : Fin 1024) :
    ridx_main_v5 (ix3 b s e) d = ix3 b d e :=
  funext fun a => Fin.ext (by match a with | ⟨0, _⟩ => rfl | ⟨1, _⟩ => rfl | ⟨2, _⟩ => rfl)

/-- The left index of the inner product at coordinates. -/
theorem lidx4_ix3 (b : Fin 8) (d e : Fin 1024) (s : Fin 4096) :
    lidx_main_v4 (ix3 b d e) s = ix3 b s d :=
  funext fun a => Fin.ext (by match a with | ⟨0, _⟩ => rfl | ⟨1, _⟩ => rfl | ⟨2, _⟩ => rfl)

/-- The right index of the inner product at coordinates. -/
theorem ridx4_ix3 (b : Fin 8) (d e : Fin 1024) (s : Fin 4096) :
    ridx_main_v4 (ix3 b d e) s = ix3 b s e :=
  funext fun a => Fin.ext (by match a with | ⟨0, _⟩ => rfl | ⟨1, _⟩ => rfl | ⟨2, _⟩ => rfl)

/-- The scaled operand q · c at an index. -/
theorem v1_at (x0 : (⟨S8x4096x1024, .f32⟩ : BufTy).Contents (Elt Ideal)) (i : S8x4096x1024.Idx) :
    val_main_v1 (F := Ideal) x0 i = (x0 i : EReal) * sc := by
  rw [val_main_v1_apply, val_main_v0_apply, val_main_cst_apply]
  simp only [Ideal.mulf_def, Ideal.ofBits_def, sc]

/-- The scaled operand k · c at an index. -/
theorem v3_at (x1 : (⟨S8x4096x1024, .f32⟩ : BufTy).Contents (Elt Ideal)) (i : S8x4096x1024.Idx) :
    val_main_v3 (F := Ideal) x1 i = (x1 i : EReal) * sc := by
  rw [val_main_v3_apply, val_main_v2_apply, val_main_cst_0_apply]
  simp only [Ideal.mulf_def, Ideal.ofBits_def, sc]

/-- The inner product is the matrix Kᵀ V of the specification. -/
theorem v4_at (x1 x2 : (⟨S8x4096x1024, .f32⟩ : BufTy).Contents (Elt Ideal)) (b : Fin 8) (d e : Fin 1024) :
    val_main_v4 (F := Ideal) x1 x2 (ix3 b d e) = kvAt x1 x2 b d e := by
  rw [val_main_v4_apply]
  unfold kvAt
  refine Finset.sum_congr rfl fun s _ => ?_
  rw [lidx4_ix3, ridx4_ix3, v3_at]

/-- The reference's result is G. -/
theorem ref_is_G (x0 x1 x2 : (⟨S8x4096x1024, .f32⟩ : BufTy).Contents (Elt Ideal)) :
    val_main_v5 (F := Ideal) x0 x1 x2 = G x0 x1 x2 := by
  funext i
  obtain ⟨b, s, e, rfl⟩ : ∃ (b : Fin 8) (s : Fin 4096) (e : Fin 1024), i = ix3 b s e :=
    ⟨i 0, i 1, i 2, eq_ix3 (n0 := 8) (n1 := 4096) (n2 := 1024) i⟩
  rw [G_ix3, val_main_v5_apply]
  unfold outAt outOf
  refine Finset.sum_congr rfl fun d _ => ?_
  rw [lidx5_ix3, ridx5_ix3, v1_at, v4_at, kvArr_ix3]

/-- Every weakly fair execution of the reference terminates with its result array holding G of the
    three argument arrays as they were at launch, and the arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread nD τ).loc main_v5)
          = Cert.LinAttn.G (m ((c.tc : Thread nD τ).loc main_arg0)) (m ((c.tc : Thread nD τ).loc main_arg1))
              (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run (Cert.ReferenceIdeal.defs (F := Ideal)) _ _).mono
    (fun _ h c => ⟨((h c).1.trans (val_main_v5_eq (F := Ideal) _ _ _)).trans (ref_is_G _ _ _), (h c).2⟩)
    (Cert.ReferenceIdeal.Value.run (F := Ideal) m ρ)

end Cert.LinAttn.Ref

end
-- ==== Proof.lean ====
/-
  Linear attention over f32[8,4096,1024] arrays q, k, v, with c = 1/64 = 1/√4096 (an exact power of two, the same 32-bit word
  in both programs):  out[b,s,e] = Σ_d (q[b,s,d]·c) · (Σ_{s'} (k[b,s',d]·c) · v[b,s',e]).

  The kernel computes it in two pipelined regions. Region 0 walks 8 batches × 8 tiles of 512 positions, adding each tile's
  share of Kᵀ V into an accumulator it carries from one grid point to the next (cleared at a batch's first tile, written out at
  its last); region 1 multiplies each tile of 512 rows of Q (scaled) by the batch's matrix. The reference is two whole
  dot-products. At the ideal instance (floats the extended reals, every operation exact, a change of float format the
  identity) the two agree: zero plus eight tile sums added left to right is the sum over all 4096 positions — only 0 + x = x
  and the commutativity and associativity of + are used, so no finiteness is needed and the precondition is never opened.

  The three frames: each kernel program runs to the end, faults nowhere and leaves q, k, v unchanged — proved once at any
  float instance (the frame modules), read here at the word-level instance and at the ideal one; the reference's frame is its
  run with the result dropped. The idealization changes no operation, so that conjunct is trivial.
-/
import proofs.«156753_j34445637714059_1_alg».proof.Defs
import proofs.«156753_j34445637714059_1_alg».proof.Proof.Gen.Kernel
import proofs.«156753_j34445637714059_1_alg».proof.Proof.Gen.KernelIdeal
import proofs.«156753_j34445637714059_1_alg».proof.Proof.Gen.ReferenceIdeal
import proofs.«156753_j34445637714059_1_alg».proof.Proof.Gen.Pre_finite_inputs
import proofs.«156753_j34445637714059_1_alg».proof.Proof.FrameK.Main
import proofs.«156753_j34445637714059_1_alg».proof.Proof.KernelValue
import proofs.«156753_j34445637714059_1_alg».proof.Proof.RefValue

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.LinAttn.Ref.ref_run m ρ)

/-- Both idealized programs, from memories agreeing on q, k, v, end with the result at G of those arrays. -/
theorem algebraic : Cert.algebraic_KernelIdeal_ReferenceIdeal := by
  intro m ρ m' ρ' _ hagree
  refine ⟨fun c => Cert.LinAttn.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.LinAttn.kernel_run m ρ, ?_⟩
  refine (θ_run Cert.ReferenceIdeal.defs _ _).mono (fun _ h c => ⟨(h c).1.trans ?_, (h c).2⟩) (Cert.LinAttn.Ref.ref_run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
